-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S1024x2048 : Shape := ⟨2, ![1024, 2048]⟩
abbrev S1024 : Shape := ⟨1, ![1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x2048 .f32) (main_arg1 : FVec F S1024x2048 .f32) (main_arg2 : FVec F S1024 .f32) (main_arg3 : FVec F S1024 .f32) (main_arg4 : FVec F S1024 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S16384x2048 : Shape := ⟨2, ![16384, 2048]⟩
abbrev S1024x2048 : Shape := ⟨2, ![1024, 2048]⟩
abbrev S1024 : Shape := ⟨1, ![1024]⟩
abbrev S1x1024 : Shape := ⟨2, ![1, 1024]⟩
abbrev S16384x1024 : Shape := ⟨2, ![16384, 1024]⟩
abbrev S_ : Shape := ⟨0, ![]⟩
abbrev S512x2048 : Shape := ⟨2, ![512, 2048]⟩
abbrev S512x1024 : Shape := ⟨2, ![512, 1024]⟩
abbrev S1024x1024 : Shape := ⟨2, ![1024, 1024]⟩

abbrev nBuf : Space → Nat
  | .hbm => 24
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S1024x2048, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S1024x2048, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x2048, .bf16⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1_0 : Ref sig .tc := ⟨.hbm, 6, rfl⟩
abbrev main_call0_v1_1 : Ref sig .tc := ⟨.hbm, 7, rfl⟩
abbrev main_call0_v1_2 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S1024_S1x1024 : S1024.ShapeCasts S1x1024
  bcast_S_S1x1024 : S_.BroadcastsInDim S1x1024 (![] : Fin 0 → Fin S1x1024.rank)
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  inb_S1x1024_S1x1024_0_0 : ∀ a, (![0, 0] : Fin 2 → Nat) a + S1x1024.size a ≤ S1x1024.size a
  h_S1x1024 : 0 < S1x1024.numel
  inb_S512x2048_S512x2048_0_0 : ∀ a, (![0, 0] : Fin 2 → Nat) a + S512x2048.size a ≤ S512x2048.size a
  h_S512x2048 : 0 < S512x2048.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  reduces_S512x1024_S1024 : S512x1024.Reduces [0] S1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S1024x1024 : S1x1024.Broadcasts S1024x1024
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S16384x1024.size a
  hwx1_5 : ∀ i : grid1.Coords, EltTy.bits .f32 = 32 ∨ (Rect.block (s := S16384x1024) S1024x1024.size (cc1_transform_5 i) (hinb1_5 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1_1) S1x1024.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1_2) S1x1024.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v1_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v10) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v11) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v12) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S1024x2048 : Shape := ⟨2, ![1024, 2048]⟩
abbrev S1024 : Shape := ⟨1, ![1024]⟩
abbrev S_ : Shape := ⟨0, ![]⟩
abbrev S16384x1024 : Shape := ⟨2, ![16384, 1024]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1024x2048, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1024x2048, .f32⟩
  | .hbm, ⟨7, _⟩ => ⟨S1024x2048, .i1⟩
  | .hbm, ⟨8, _⟩ => ⟨S_, .f32⟩
  | .hbm, ⟨9, _⟩ => ⟨S_, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S1024x2048, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_cst_5 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_cst_7 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  bcast_S_S1024x2048 : S_.BroadcastsInDim S1024x2048 (![] : Fin 0 → Fin S1024x2048.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S1024_d0 : S16384x1024.ReducesTo [0] S1024
  h_S_ : 0 < S_.numel
  bcast_S_S1024 : S_.BroadcastsInDim S1024 (![] : Fin 0 → Fin S1024.rank)
  dot_S16384x2048_S1024x2048_S16384x1024_1_1_0_0_n_n_wf : DotDims.WF S16384x2048 S1024x2048 S16384x1024 [1] [1] [0] [0] [] []

variable [Facts₀]

def dot_S16384x2048_S1024x2048_S16384x1024_1_1_0_0_n_n : DotDims S16384x2048 S1024x2048 S16384x1024 where
  lhsContracting := [1]
  rhsContracting := [1]
  lhsNonContracting := [0]
  rhsNonContracting := [0]
  lhsBatch := []
  rhsBatch := []
  wf := dot_S16384x2048_S1024x2048_S16384x1024_1_1_0_0_n_n_wf

class Facts : Prop extends Facts₀ where

variable [Facts]
-- ==== Proof.KbRuns0.lean ====
/-
  The first pallas_call (the linear layer with its running column sums), the part its two control cases share:
  the windows' blocks as the region finds them, the branch condition "this is the grid's first point" decided over
  the grid, the staging memrefs at a point, the carried scratch (the binarised weight) as a memref, and the class
  invariant with that scratch owned at some contents.
-/
import proofs.«159027_j9852654977033_1_alg».proof.Proof.Gen.Kernel.Launch
import proofs.«159027_j9852654977033_1_alg».proof.Proof.Gen.Kernel.Skeleton
import proofs.«159027_j9852654977033_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the region is entered with -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved. The rows of x (window 0), the weight (window 1), the bias row (window 2). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's one branch condition -/

/-- The condition of the body's `scf.if`: the grid coordinate is 0. -/
abbrev cond0_0 (i : grid0.Coords) : Prop := (Scalar.cmpi .ne (Scalar.extui (Scalar.cmpi .eq (BitVec.ofNat 32 (i 0).val) 0#32)) 0#32) = 1#1
/-- It holds at the first point only — decided over the grid's 32 points. -/
theorem hcond0_0 : ∀ t : Fin cfg0.N, cond0_0 (grid0.coords t) ↔ t.val = 0 :=
  (by decide +kernel : ∀ t : Fin grid0.N, cond0_0 (grid0.coords t) ↔ t.val = 0)

/-- The two running sums (windows 4 and 5) are written back at the last point only, so not at a point before a later one. -/
theorem noFlush0_4 (t : Fin cfg0.N) (ht : t.val ≠ 0) : (cfg0.win 4).flush ⟨t.val - 1, Nat.lt_of_le_of_lt (Nat.sub_le _ _) t.isLt⟩ = false :=
  Bool.eq_false_iff.mpr fun h => by
    have h1 := (flush0_4 _).mp h; have hN : t.val < 32 := lt_of_lt_of_eq t.isLt (show cfg0.N = 32 from N_0); dsimp only at h1; omega
theorem noFlush0_5 (t : Fin cfg0.N) (ht : t.val ≠ 0) : (cfg0.win 5).flush ⟨t.val - 1, Nat.lt_of_le_of_lt (Nat.sub_le _ _) t.isLt⟩ = false :=
  Bool.eq_false_iff.mpr fun h => by
    have h1 := (flush0_5 _).mp h; have hN : t.val < 32 := lt_of_lt_of_eq t.isLt (show cfg0.N = 32 from N_0); dsimp only at h1; omega

/-! ## The staging memrefs at a point, and the scratch -/

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
/-- The scratch operand: the whole scoped buffer that carries the binarised weight from the first point on. -/
abbrev scM0 : Memref sig .tc .vmem S1024x2048 .bf16 := Memref.whole cc0_scratch0

/-- One view per written buffer's shape, through which its contents are stated (the choice does not matter once the
    written pieces cover the buffer). -/
abbrev VO0_3 : View sig .tc .vmem S512x1024 .f32 := (Memref.whole cc0_stg3_0 : Memref sig .tc .vmem S512x1024 .f32).view
abbrev VO0_4 : View sig .tc .vmem S1x1024 .f32 := (Memref.whole cc0_stg4_0 : Memref sig .tc .vmem S1x1024 .f32).view
abbrev VO0_5 : View sig .tc .vmem S1x1024 .f32 := (Memref.whole cc0_stg5_0 : Memref sig .tc .vmem S1x1024 .f32).view
abbrev VS0 : View sig .tc .vmem S1024x2048 .bf16 := scM0.view

end Cert.Kernel.R0

end
-- ==== Proof.KbRun0A.lean ====
/-
  The first pallas_call's body at the grid's first point: the branch is taken, so the body binarises the weight
  into the scratch, zeroes the two running sums, then computes the block of the linear layer and adds its column
  sums (and those of its squares) onto the zeroed sums. What each written buffer ends with, as the pieces the
  symbolic run finds, with the body's triple.
-/
import proofs.«159027_j9852654977033_1_alg».proof.Proof.KbRuns0

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces (last first) the body's stores leave in the output block, the two running sums and the scratch at a
    point where the branch is taken, with the triple: on whole memrefs — the three inputs at their contents, the
    three outputs and the scratch at anything — the body runs to the continuation holding the inputs as they were and
    each written buffer with its pieces written. -/
noncomputable def kernelRun0_A (c : Dev nD) (i : grid0.Coords) (arg1 : Memref sig .tc .vmem S512x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (hc0 : cond0_0 i)
    (x0 : Vec F S512x2048 .f32) (x1 : Vec F S1024x2048 .f32) (x2 : Vec F S1x1024 .f32) :
    Σ' (L4 : List (View.Piece (Elt F) S512x1024 .f32)) (L5 : List (View.Piece (Elt F) S1x1024 .f32)) (L6 : List (View.Piece (Elt F) S1x1024 .f32)), { LS : List (View.Piece (Elt F) S1024x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS)) -∗ K ⟨⟩))
          ⊢ wp frame (wpE (defs₀ (F := F)) Variants.none c none) E (cc0__matmul_stats_kernel i arg1 harg1 arg2 harg2 arg3 harg3 arg4 harg4 arg5 harg5 arg6 harg6 arg7 harg7) K } := by
  refine ⟨?_, ?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%f2, %hf2, H2⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]; · iexists _; iexact H4
    isplitl [H5]; · iexists _; iexact H5
    isplitl [H6]; · iexists _; iexact H6
    iexists _; iexact H7

end Cert.Kernel.R0

end
-- ==== Proof.KbRun0B.lean ====
/-
  The first pallas_call's body at a later grid point: the branch is not taken, so the body reads the binarised
  weight the scratch carries, computes the block of the linear layer, and adds its column sums (and those of its
  squares) onto the running sums the point before left. What each written buffer ends with, as the pieces the
  symbolic run finds, with the body's triple.
-/
import proofs.«159027_j9852654977033_1_alg».proof.Proof.KbRun0A

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces (last first) the body's stores leave in the output block and the two running sums at a point where the
    branch is not taken, with the triple: on whole memrefs — the three inputs, the two running sums and the scratch at
    their contents, the output block at anything — the body runs to the continuation holding the inputs and the scratch
    as they were and each written buffer with its pieces written. -/
noncomputable def kernelRun0_B (c : Dev nD) (i : grid0.Coords) (arg1 : Memref sig .tc .vmem S512x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (hc0 : ¬cond0_0 i)
    (x0 : Vec F S512x2048 .f32) (x1 : Vec F S1024x2048 .f32) (x2 : Vec F S1x1024 .f32) (xo5 xo6 : Vec F S1x1024 .f32) (xs : Vec F S1024x2048 .bf16) :
    Σ' (L4 : List (View.Piece (Elt F) S512x1024 .f32)) (L5 : List (View.Piece (Elt F) S1x1024 .f32)), { L6 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo5 ∗ owns (c : Thread nD τ) arg6 fullShare xo6 ∗ owns (c : Thread nD τ) arg7 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ owns (c : Thread nD τ) arg7 fullShare xs) -∗ K ⟨⟩))
          ⊢ wp frame (wpE (defs₀ (F := F)) Variants.none c none) E (cc0__matmul_stats_kernel i arg1 harg1 arg2 harg2 arg3 harg3 arg4 harg4 arg5 harg5 arg6 harg6 arg7 harg7) K } := by
  refine ⟨?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%f2, %hf2, H2⟩, ⟨%d4, %f4, -, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2
    obtain rfl := harg5.eq_unread hf5; obtain rfl := harg6.eq_unread hf6; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]; · iexists _; iexact H4
    isplitl [H5]; · iexists _; iexact H5
    isplitl [H6]; · iexists _; iexact H6
    iexists _; isplitr; · ipureintro; exact harg7.read_unread _
    iexact H7

end Cert.Kernel.R0

end
-- ==== Proof.KbPieces0.lean ====
/-
  The first pallas_call's body, read as values: in each control case the written pieces tile their buffers, and what
  each buffer then holds is the body's arithmetic of the blocks it loaded — the linear layer's block
  x·sᵀ + bias (with s the binarised weight), the two running sums advanced by this block's column sums, and at the
  first point the binarised weight itself in the scratch.
-/
import proofs.«159027_j9852654977033_1_alg».proof.Proof.KbRun0B
import Idealize.ShloMosaic.Lib.Pipeline.Value

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## The branch taken (the grid's first point) -/

section A
variable (c : Dev nD) (i : grid0.Coords) (arg1 : Memref sig .tc .vmem S512x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (hc0 : cond0_0 i)
    (x0 : Vec F S512x2048 .f32) (x1 : Vec F S1024x2048 .f32) (x2 : Vec F S1x1024 .f32)

/-- Each written buffer's pieces tile it (checked by evaluation), so they cover it. -/
theorem cover0_A_3 (y : S512x1024.Idx) : ∃ pc ∈ (kernelRun0_A c i arg1 harg1 arg2 harg2 arg3 harg3 arg4 harg4 arg5 harg5 arg6 harg6 arg7 harg7 hc0 x0 x1 x2).1, y ∈ pc.1.set :=
  View.cover_of_tiledL (kernelRun0_A c i arg1 harg1 arg2 harg2 arg3 harg3 arg4 harg4 arg5 harg5 arg6 harg6 arg7 harg7 hc0 x0 x1 x2).1 S512x1024.size (by sl_kernel_rfl) y
theorem cover0_A_4 (y : S1x1024.Idx) : ∃ pc ∈ (kernelRun0_A c i arg1 harg1 arg2 harg2 arg3 harg3 arg4 harg4 arg5 harg5 arg6 harg6 arg7 harg7 hc0 x0 x1 x2).2.1, y ∈ pc.1.set :=
  View.cover_of_tiledL (kernelRun0_A c i arg1 harg1 arg2 harg2 arg3 harg3 arg4 harg4 arg5 harg5 arg6 harg6 arg7 harg7 hc0 x0 x1 x2).2.1 S1x1024.size (by sl_kernel_rfl) y
theorem cover0_A_5 (y : S1x1024.Idx) : ∃ pc ∈ (kernelRun0_A c i arg1 harg1 arg2 harg2 arg3 harg3 arg4 harg4 arg5 harg5 arg6 harg6 arg7 harg7 hc0 x0 x1 x2).2.2.1, y ∈ pc.1.set :=
  View.cover_of_tiledL (kernelRun0_A c i arg1 harg1 arg2 harg2 arg3 harg3 arg4 harg4 arg5 harg5 arg6 harg6 arg7 harg7 hc0 x0 x1 x2).2.2.1 S1x1024.size (by sl_kernel_rfl) y
theorem scover0_A (y : S1024x2048.Idx) : ∃ pc ∈ (kernelRun0_A c i arg1 harg1 arg2 harg2 arg3 harg3 arg4 harg4 arg5 harg5 arg6 harg6 arg7 harg7 hc0 x0 x1 x2).2.2.2.1, y ∈ pc.1.set :=
  View.cover_of_tiledL (kernelRun0_A c i arg1 harg1 arg2 harg2 arg3 harg3 arg4 harg4 arg5 harg5 arg6 harg6 arg7 harg7 hc0 x0 x1 x2).2.2.2.1 S1024x2048.size (by sl_kernel_rfl) y

/-- The output block: the linear layer of the block of x against the weight binarised at this very point. -/
theorem pieceA_3 : VO0_3.read (Elt F) (VO0_3.writes (Elt F) VO0_3.junk (kernelRun0_A c i arg1 harg1 arg2 harg2 arg3 harg3 arg4 harg4 arg5 harg5 arg6 harg6 arg7 harg7 hc0 x0 x1 x2).1) = k0_pay4 x0 (k0_pay1 x1) x2 := by
  rw [View.read_writes_eq_canon _ _ _ (cover0_A_3 c i arg1 harg1 arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg1.read_unread, harg2.read_unread, harg3.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

/-- The running sum: this block's column sums onto the zeros stored just before. -/
theorem pieceA_4 : VO0_4.read (Elt F) (VO0_4.writes (Elt F) VO0_4.junk (kernelRun0_A c i arg1 harg1 arg2 harg2 arg3 harg3 arg4 harg4 arg5 harg5 arg6 harg6 arg7 harg7 hc0 x0 x1 x2).2.1) = k0_pay5 x0 (k0_pay1 x1) x2 k0_pay2 := by
  rw [View.read_writes_eq_canon _ _ _ (cover0_A_4 c i arg1 harg1 arg2 harg2 arg3 harg3 arg4 harg4 arg5 harg5 arg6 harg6 arg7 harg7 hc0 x0 x1 x2)]
  unfold kernelRun0_A
  dsimp only
  sl_unfold_words
  rw [View.canon_cons_unit_zero hz2]
  simp only [View.readAt_eq_ld, harg1.read_unread, harg2.read_unread, harg3.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

/-- The running sum of squares, likewise. -/
theorem pieceA_5 : VO0_5.read (Elt F) (VO0_5.writes (Elt F) VO0_5.junk (kernelRun0_A c i arg1 harg1 arg2 harg2 arg3 harg3 arg4 harg4 arg5 harg5 arg6 harg6 arg7 harg7 hc0 x0 x1 x2).2.2.1) = k0_pay6 x0 (k0_pay1 x1) x2 k0_pay3 := by
  rw [View.read_writes_eq_canon _ _ _ (cover0_A_5 c i arg1 harg1 arg2 harg2 arg3 harg3 arg4 harg4 arg5 harg5 arg6 harg6 arg7 harg7 hc0 x0 x1 x2)]
  unfold kernelRun0_A
  dsimp only
  sl_unfold_words
  rw [View.canon_cons_unit_zero hz2]
  simp only [View.readAt_eq_ld, harg1.read_unread, harg2.read_unread, harg3.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

/-- The scratch: the binarised weight. -/
theorem pieceA_S : VS0.read (Elt F) (VS0.writes (Elt F) VS0.junk (kernelRun0_A c i arg1 harg1 arg2 harg2 arg3 harg3 arg4 harg4 arg5 harg5 arg6 harg6 arg7 harg7 hc0 x0 x1 x2).2.2.2.1) = k0_pay1 x1 := by
  rw [View.read_writes_eq_canon _ _ _ (scover0_A c i arg1 harg1 arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg1.read_unread, harg2.read_unread, harg3.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

end A

/-! ## The branch not taken (every later point) -/

section B
variable (c : Dev nD) (i : grid0.Coords) (arg1 : Memref sig .tc .vmem S512x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (hc0 : ¬cond0_0 i)
    (x0 : Vec F S512x2048 .f32) (x1 : Vec F S1024x2048 .f32) (x2 : Vec F S1x1024 .f32) (xo5 xo6 : Vec F S1x1024 .f32) (xs : Vec F S1024x2048 .bf16)

theorem cover0_B_3 (y : S512x1024.Idx) : ∃ pc ∈ (kernelRun0_B c i arg1 harg1 arg2 harg2 arg3 harg3 arg4 harg4 arg5 harg5 arg6 harg6 arg7 harg7 hc0 x0 x1 x2 xo5 xo6 xs).1, y ∈ pc.1.set :=
  View.cover_of_tiledL (kernelRun0_B c i arg1 harg1 arg2 harg2 arg3 harg3 arg4 harg4 arg5 harg5 arg6 harg6 arg7 harg7 hc0 x0 x1 x2 xo5 xo6 xs).1 S512x1024.size (by sl_kernel_rfl) y
theorem cover0_B_4 (y : S1x1024.Idx) : ∃ pc ∈ (kernelRun0_B c i arg1 harg1 arg2 harg2 arg3 harg3 arg4 harg4 arg5 harg5 arg6 harg6 arg7 harg7 hc0 x0 x1 x2 xo5 xo6 xs).2.1, y ∈ pc.1.set :=
  View.cover_of_tiledL (kernelRun0_B c i arg1 harg1 arg2 harg2 arg3 harg3 arg4 harg4 arg5 harg5 arg6 harg6 arg7 harg7 hc0 x0 x1 x2 xo5 xo6 xs).2.1 S1x1024.size (by sl_kernel_rfl) y
theorem cover0_B_5 (y : S1x1024.Idx) : ∃ pc ∈ (kernelRun0_B c i arg1 harg1 arg2 harg2 arg3 harg3 arg4 harg4 arg5 harg5 arg6 harg6 arg7 harg7 hc0 x0 x1 x2 xo5 xo6 xs).2.2.1, y ∈ pc.1.set :=
  View.cover_of_tiledL (kernelRun0_B c i arg1 harg1 arg2 harg2 arg3 harg3 arg4 harg4 arg5 harg5 arg6 harg6 arg7 harg7 hc0 x0 x1 x2 xo5 xo6 xs).2.2.1 S1x1024.size (by sl_kernel_rfl) y

/-- The output block: the linear layer of the block of x against the binarised weight the scratch carries. -/
theorem pieceB_3 : VO0_3.read (Elt F) (VO0_3.writes (Elt F) VO0_3.junk (kernelRun0_B c i arg1 harg1 arg2 harg2 arg3 harg3 arg4 harg4 arg5 harg5 arg6 harg6 arg7 harg7 hc0 x0 x1 x2 xo5 xo6 xs).1) = k0_pay4 x0 xs x2 := by
  rw [View.read_writes_eq_canon _ _ _ (cover0_B_3 c i arg1 harg1 arg2 harg2 arg3 harg3 arg4 harg4 arg5 harg5 arg6 harg6 arg7 harg7 hc0 x0 x1 x2 xo5 xo6 xs)]
  unfold kernelRun0_B
  dsimp only
  sl_unfold_words
  rw [View.canon_unit_zero hz2]
  simp only [View.readAt_eq_ld, harg1.read_unread, harg2.read_unread, harg3.read_unread, harg5.read_unread, harg6.read_unread, harg7.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

/-- The running sum: this block's column sums onto what the point before left. -/
theorem pieceB_4 : VO0_4.read (Elt F) (VO0_4.writes (Elt F) VO0_4.junk (kernelRun0_B c i arg1 harg1 arg2 harg2 arg3 harg3 arg4 harg4 arg5 harg5 arg6 harg6 arg7 harg7 hc0 x0 x1 x2 xo5 xo6 xs).2.1) = k0_pay5 x0 xs x2 xo5 := by
  rw [View.read_writes_eq_canon _ _ _ (cover0_B_4 c i arg1 harg1 arg2 harg2 arg3 harg3 arg4 harg4 arg5 harg5 arg6 harg6 arg7 harg7 hc0 x0 x1 x2 xo5 xo6 xs)]
  unfold kernelRun0_B
  dsimp only
  sl_unfold_words
  rw [View.canon_unit_zero hz2]
  simp only [View.readAt_eq_ld, harg1.read_unread, harg2.read_unread, harg3.read_unread, harg5.read_unread, harg6.read_unread, harg7.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

/-- The running sum of squares, likewise. -/
theorem pieceB_5 : VO0_5.read (Elt F) (VO0_5.writes (Elt F) VO0_5.junk (kernelRun0_B c i arg1 harg1 arg2 harg2 arg3 harg3 arg4 harg4 arg5 harg5 arg6 harg6 arg7 harg7 hc0 x0 x1 x2 xo5 xo6 xs).2.2.1) = k0_pay6 x0 xs x2 xo6 := by
  rw [View.read_writes_eq_canon _ _ _ (cover0_B_5 c i arg1 harg1 arg2 harg2 arg3 harg3 arg4 harg4 arg5 harg5 arg6 harg6 arg7 harg7 hc0 x0 x1 x2 xo5 xo6 xs)]
  unfold kernelRun0_B
  dsimp only
  sl_unfold_words
  rw [View.canon_unit_zero hz2]
  simp only [View.readAt_eq_ld, harg1.read_unread, harg2.read_unread, harg3.read_unread, harg5.read_unread, harg6.read_unread, harg7.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

end B

end Cert.Kernel.R0

end
-- ==== Proof.KbFrame0.lean ====
/-
  The first pallas_call's proof data and body obligation. After the body at grid point t: the three input windows
  hold their blocks; the output block holds the linear layer of the t-th block of rows of x against the binarised
  weight; the two running sums hold, at point 0, the first block's column sums (and sums of squares) onto zero and,
  at a later point, this block's onto what the point before left (the sums' windows keep their block index, so the
  pipeline neither re-fetches nor writes them back between points); the scratch holds, from the first point on, the
  weight binarised at the first point. The region invariant carries the scratch at that value from point to point.
-/
import proofs.«159027_j9852654977033_1_alg».proof.Proof.KbPieces0

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers of the class invariant, the scratch split off -/

/-- The class invariant's scoped buffers are the scratch and the other pallas_call's staging buffers. -/
theorem scoped_split (c : Dev nD) : ∃ R : sProp 𝕄, (Pipeline.scopedRest (Ix := Unit) (Name := ℕ) (U := UR sig nD τ) (Lvl := ℕ) (Val := Elt F) spec0 c : sProp 𝕄)
    = iprop((∃ f : Buf (Elt F) ((c : Thread nD τ).loc cc0_scratch0), ((c : Thread nD τ).loc cc0_scratch0) ↦{fullShare} f) ∗ R) :=
  ⟨_, scopedRest0_eq c⟩
/-- The scoped buffers other than the scratch, each whole at some contents: the body never touches them. -/
def restS (c : Dev nD) : sProp 𝕄 := Classical.choose (scoped_split (F := F) c)
theorem scopedRest0_split (c : Dev nD) : (Pipeline.scopedRest (Ix := Unit) (Name := ℕ) (U := UR sig nD τ) (Lvl := ℕ) (Val := Elt F) spec0 c : sProp 𝕄)
    = iprop((∃ f : Buf (Elt F) ((c : Thread nD τ).loc cc0_scratch0), ((c : Thread nD τ).loc cc0_scratch0) ↦{fullShare} f) ∗ restS (F := F) c) :=
  Classical.choose_spec (scoped_split (F := F) c)

/-- The class invariant with the scratch as a memref owned at some contents. -/
theorem PhiA0_eq (c : Dev nD) :
    (Pipeline.ΦA spec0 c : sProp 𝕄)
      = iprop(iprop((∃ d, owns (c : Thread nD τ) scM0 fullShare d) ∗ restS (F := F) c) ∗ (∃ r, prngReg c r)) := by
  unfold Pipeline.ΦA; rw [scopedRest0_split]; simp only [scM0, owns_whole]; try rfl

section Frame
variable (V : (c : Dev nD) → (b : Ref sig .tc) → Buf (Elt F) ((c : Thread nD τ).loc b))

/-- The grid's first point. -/
def t00 : Fin cfg0.N := ⟨0, by have h : cfg0.N = 32 := N_0; omega⟩

/-- The blocks the body loads at point `t`: rows of x, the weight, the bias row. -/
abbrev xb (c : Dev nD) (t : Fin cfg0.N) : Vec F S512x2048 .f32 := iblk0 V c 0 t
abbrev wblk (c : Dev nD) (t : Fin cfg0.N) : Vec F S1024x2048 .f32 := iblk0 V c 1 t
abbrev bb (c : Dev nD) (t : Fin cfg0.N) : Vec F S1x1024 .f32 := iblk0 V c 2 t

/-- The binarised weight the scratch carries from the first point on. -/
def wb0 (c : Dev nD) : Vec F S1024x2048 .bf16 := k0_pay1 (wblk V c t00)

/-- The output block after point `t`: the linear layer of the t-th block of rows. -/
def yAt0 (c : Dev nD) (t : Fin cfg0.N) : Vec F S512x1024 .f32 := k0_pay4 (xb V c t) (wb0 V c) (bb V c t)

/-- THE ACCUMULATION: the two running sums after the body at position `n`. -/
def accAt0 (c : Dev nD) : (n : ℕ) → n < cfg0.N → Vec F S1x1024 .f32 × Vec F S1x1024 .f32
  | 0, hn => (k0_pay5 (xb V c ⟨0, hn⟩) (wb0 V c) (bb V c ⟨0, hn⟩) k0_pay2, k0_pay6 (xb V c ⟨0, hn⟩) (wb0 V c) (bb V c ⟨0, hn⟩) k0_pay3)
  | n + 1, hn => (k0_pay5 (xb V c ⟨n + 1, hn⟩) (wb0 V c) (bb V c ⟨n + 1, hn⟩) (accAt0 c n (Nat.lt_of_succ_lt hn)).1,
      k0_pay6 (xb V c ⟨n + 1, hn⟩) (wb0 V c) (bb V c ⟨n + 1, hn⟩) (accAt0 c n (Nat.lt_of_succ_lt hn)).2)

theorem accAt0_zero (c : Dev nD) (t : Fin cfg0.N) (h0 : t.val = 0) :
    accAt0 V c t.val t.isLt = (k0_pay5 (xb V c t) (wb0 V c) (bb V c t) k0_pay2, k0_pay6 (xb V c t) (wb0 V c) (bb V c t) k0_pay3) := by
  obtain ⟨n, hn⟩ := t
  cases n with
  | zero => rfl
  | succ n => exact absurd h0 (Nat.succ_ne_zero n)

theorem accAt0_pos (c : Dev nD) (t : Fin cfg0.N) (h0 : t.val ≠ 0) :
    accAt0 V c t.val t.isLt = (k0_pay5 (xb V c t) (wb0 V c) (bb V c t) (accAt0 V c (t.val - 1) (Nat.lt_of_le_of_lt (Nat.sub_le _ _) t.isLt)).1,
      k0_pay6 (xb V c t) (wb0 V c) (bb V c t) (accAt0 V c (t.val - 1) (Nat.lt_of_le_of_lt (Nat.sub_le _ _) t.isLt)).2) := by
  obtain ⟨n, hn⟩ := t
  cases n with
  | zero => exact absurd rfl h0
  | succ n => rfl

/-- The region invariant before position `n`: before the first point the class's (every scoped buffer at anything);
    afterwards the scratch at the binarised weight, the other scoped buffers at anything, the generator register at
    some state. -/
def PhiS (c : Dev nD) : (n : ℕ) → n ≤ cfg0.N → sProp 𝕄
  | 0, _ => Pipeline.ΦA spec0 c
  | _ + 1, _ => iprop(iprop(owns (c : Thread nD τ) scM0 fullShare (wb0 V c) ∗ restS (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (wb0 V c) ∗ restS (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare (wb0 V c) ∗ restS (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => yAt0 V c t
    | ⟨4, _⟩ => (accAt0 V c t.val t.isLt).1
    | ⟨5, _⟩ => (accAt0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = yAt0 V c t := by dsimp only [dat0]
theorem after0_4 (c : Dev nD) (t : Fin cfg0.N) : (dat0 V c).after 4 t = (accAt0 V c t.val t.isLt).1 := by dsimp only [dat0]
theorem after0_5 (c : Dev nD) (t : Fin cfg0.N) : (dat0 V c).after 5 t = (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At a later point each running sum's buffer holds what the body left at the point before: it was not written back
    between, and the window is live and uncut. -/
theorem before0_4_B (c : Dev nD) (t : Fin cfg0.N) (h0 : t.val ≠ 0) (d) :
    (dat0 V c).before 4 t d = (accAt0 V c (t.val - 1) (Nat.lt_of_le_of_lt (Nat.sub_le _ _) t.isLt)).1 := by
  rw [Dat.before_out_kept _ 4 rfl t h0 (noFlush0_4 t h0) (fun _ => rfl) (fun _ _ => rfl)]
  dsimp only [dat0]
theorem before0_5_B (c : Dev nD) (t : Fin cfg0.N) (h0 : t.val ≠ 0) (d) :
    (dat0 V c).before 5 t d = (accAt0 V c (t.val - 1) (Nat.lt_of_le_of_lt (Nat.sub_le _ _) t.isLt)).2 := by
  rw [Dat.before_out_kept _ 5 rfl t h0 (noFlush0_5 t h0) (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4800000 in
/-- The body at any point. The inputs' memrefs hold their blocks. At the first point the invariant hands the body every
    scoped buffer at anything and the run of the taken branch applies; the scratch comes back at the binarised weight.
    At a later point the invariant hands it the scratch at the binarised weight and the running sums hold what the point
    before left, so the run of the other branch applies; the scratch comes back as it was. The other scoped buffers, the
    generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5]
  unfold yAt0
  by_cases h0 : t.val = 0
  · rw [accAt0_zero V c t h0, PhiS_castSucc V c t, PhiS_zero V c _ _ h0, PhiA0_eq]
    have ht : t = t00 := Fin.ext h0
    unfold wb0
    rw [← ht]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (xb V c t) (wblk V c t) (bb V c t)).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, ⟨%e3, H3⟩, ⟨%e4, H4⟩, ⟨%e5, H5⟩, ⟨%es, HS⟩⟩
    isplitl [HS HR Hg]
    · isplitl [HS HR]
      · isplitl [HS]
        · unfold owns; iexists _; isplitr
          swap; · iexact HS
          ipureintro; exact (View.read_writes_of_cover _ _ _ _ _ (scover0_A c _ _ _ _ _ _ _ _ _ _ _ _ _ _ _ _ _ _ _)).trans (pieceA_S c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact (View.read_writes_of_cover _ _ _ _ _ (cover0_A_3 c _ _ _ _ _ _ _ _ _ _ _ _ _ _ _ _ _ _ _)).trans (pieceA_3 c _ _ _ _ _ _ _ _ _ _ _ _ _ _ _ _ _ _ _)
    isplitl [H4]
    · unfold owns; iexists _; isplitr
      swap; · iexact H4
      ipureintro; exact (View.read_writes_of_cover _ _ _ _ _ (cover0_A_4 c _ _ _ _ _ _ _ _ _ _ _ _ _ _ _ _ _ _ _)).trans (pieceA_4 c _ _ _ _ _ _ _ _ _ _ _ _ _ _ _ _ _ _ _)
    unfold owns; iexists _; isplitr
    swap; · iexact H5
    ipureintro; exact (View.read_writes_of_cover _ _ _ _ _ (cover0_A_5 c _ _ _ _ _ _ _ _ _ _ _ _ _ _ _ _ _ _ _)).trans (pieceA_5 c _ _ _ _ _ _ _ _ _ _ _ _ _ _ _ _ _ _ _)
  · rw [accAt0_pos V c t h0, PhiS_castSucc V c t, PhiS_pos V c _ _ h0]
    simp only [before0_4_B V c t h0, before0_5_B V c t h0]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (xb V c t) (wblk V c t) (bb V c t) _ _ (wb0 V c)).2.2.2 Set.univ _)
    isplitl [H0]; · iexact H0
    isplitl [H1]; · iexact H1
    isplitl [H2]; · iexact H2
    isplitl [H3]; · iexists _; iexact H3
    isplitl [H4]; · iexact H4
    isplitl [H5]; · iexact H5
    isplitl [HS]; · iexact HS
    iintro ⟨H0, H1, H2, ⟨%e3, H3⟩, ⟨%e4, H4⟩, ⟨%e5, H5⟩, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact (View.read_writes_of_cover _ _ _ _ _ (cover0_B_3 c _ _ _ _ _ _ _ _ _ _ _ _ _ _ _ _ _ _ _ _ _ _)).trans (pieceB_3 c _ _ _ _ _ _ _ _ _ _ _ _ _ _ _ _ _ _ _ _ _ _)
    isplitl [H4]
    · unfold owns; iexists _; isplitr
      swap; · iexact H4
      ipureintro; exact (View.read_writes_of_cover _ _ _ _ _ (cover0_B_4 c _ _ _ _ _ _ _ _ _ _ _ _ _ _ _ _ _ _ _ _ _ _)).trans (pieceB_4 c _ _ _ _ _ _ _ _ _ _ _ _ _ _ _ _ _ _ _ _ _ _)
    unfold owns; iexists _; isplitr
    swap; · iexact H5
    ipureintro; exact (View.read_writes_of_cover _ _ _ _ _ (cover0_B_5 c _ _ _ _ _ _ _ _ _ _ _ _ _ _ _ _ _ _ _ _ _ _)).trans (pieceB_5 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, HR⟩, Hg⟩
  isplitl [HS HR]
  · isplitl [HS]; · iexists _; iexact HS
    iexact HR
  iexact Hg

end Frame

end Cert.Kernel.R0

end
-- ==== Proof.KbRegion1.lean ====
import proofs.«159027_j9852654977033_1_alg».proof.Proof.Gen.Kernel.Launch
import proofs.«159027_j9852654977033_1_alg».proof.Proof.Gen.Kernel.Skeleton
import proofs.«159027_j9852654977033_1_alg».proof.Proof.Gen.Kernel.Points
import Idealize.ShloMosaic.Lib.Pipeline.FrameBody
import Idealize.ShloMosaic.Lib.Ring
import Idealize.ShloMosaic.Lib.Tactic

/-!
# The normalisation kernel on its grid of 16 row blocks: what each point's body finds and leaves

The second kernel of the program walks the [16384,1024] array of centred products in 16 blocks of 1024 rows.
At point `t` it reads block `t` of that array (window 0) and four [1,1024] rows (windows 1 to 4: the column
means, the column scales and the two affine rows), and writes block `t` of the result (window 5):
`((x − mean) · scale) · gamma + beta`, each row broadcast down the 1024 rows of the block.

The four rows have block index (0,0) at every point, so they are fetched once, at the first point, and the
staging buffer still holds them at every later point: an input window whose body leaves its block in place
holds at every point what a fetch there would put in it, whether or not it was fetched there.
The body's one store covers the whole output block, so what the output buffer holds after the body is a
function of the five input blocks alone.
-/

-- membership in a rectangle of 1024 × 1024 entries recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a block of 1024 rows, fetched at every point) holds its block at every point, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input windows 1 to 4 (one [1,1024] row each, block index (0,0) throughout, fetched at the first point only) hold
    their block at every point: where the row is not fetched the block index has not moved, and the buffer still
    holds the previous point's block, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [1024,1024] block. -/
abbrev rBlk : Rect S1024x1024 := Rect.unit (s := S1024x1024) ![0, 0] S1024x1024.size inb_S1024x1024_S1024x1024_0_0
/-- The whole [1,1024] row. -/
abbrev rRow : Rect S1x1024 := Rect.unit (s := S1x1024) ![0, 0] S1x1024.size inb_S1x1024_S1x1024_0_0

/-! ## What the body leaves in the output window's buffer -/

/-- Window 5's staging buffer after the body, from the five input blocks: its one store, of
    `((x0 − x1) · x2) · x3 + x4` with the rows broadcast down the block, over the whole block. -/
def out1_5 (x0 : Vec F S1024x1024 .f32) (x1 x2 x3 x4 : Vec F S1x1024 .f32) : Vec F S1024x1024 .f32 :=
  View.canon [⟨rBlk, k1_pay1 (View.ld x0 rBlk) (View.ld x1 rRow) (View.ld x2 rRow) (View.ld x3 rRow) (View.ld x4 rRow)⟩]

/-- The one store is of the whole block, so it covers the buffer. -/
theorem cover1_5 (p0 : Vec F S1024x1024 .f32) (y : S1024x1024.Idx) :
    ∃ pc ∈ ([⟨rBlk, p0⟩] : List (View.Piece (Elt F) S1024x1024 .f32)), y ∈ pc.1.set :=
  View.cover_of_tiled [⟨rBlk, p0⟩] S1024x1024.size (by rfl) y

/-! ## The body's triple -/

set_option maxHeartbeats 1000000 in
/-- The kernel body on whole staging memrefs, the five inputs' at read contents `x0 … x4` and the output's at
    anything, runs to the continuation holding the inputs' as they were and the output's at `out1_5` of the inputs'. -/
theorem sound_kernel1 (c : Dev nD) (E : Set ℕ) (i : grid1.Coords)
    (arg1 : Memref sig .tc .vmem S1024x1024 .f32) (harg1 : arg1.IsWhole) (arg2 : Memref sig .tc .vmem S1x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1024x1024 .f32) (harg6 : arg6.IsWhole)
    (x0 : Vec F S1024x1024 .f32) (x1 x2 x3 x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__normalize_kernel i arg1 harg1 arg2 harg2 arg3 harg3 arg4 harg4 arg5 harg5 arg6 harg6) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the kernel's pipeline on core `c`: the arrays as the region finds them (`V`); after the body at
    point `t` each input's buffer at its block and the output's at `out1_5` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.KbWhole.lean ====
/-
  The kernel program's run, whole: @main is a reshape of the bias, the first pallas_call, fourteen host
  operations (the batch statistics from the two running sums), and the second pallas_call. The buffers' contents at
  each boundary are a fold from the launch memory: after a host stretch what its operations compute, after a
  pallas_call its windows' arrays at what the pipeline's write-backs leave and every other buffer as before. Each
  pallas_call is a segment whose arrays are split out of the unscoped buffers on entry and put back at the exit
  contents; the first one's invariant also carries its scratch. Every weakly fair execution terminates with every
  unscoped buffer at the last boundary's contents: the result array there, and each argument as launched (no host
  operation writes one, and a pallas_call only reads it).
-/
import proofs.«159027_j9852654977033_1_alg».proof.Proof.KbFrame0
import proofs.«159027_j9852654977033_1_alg».proof.Proof.KbRegion1
import proofs.«159027_j9852654977033_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev W0 (c : Dev nD) : Valuation τ sig (Elt F) := fun b => m (c, b)
/-- After the bias's reshape (the first pallas_call's entry). -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- At the first pallas_call's exit: its arrays at what the pipeline leaves, every other buffer as entered. -/
def W2 (c : Dev nD) : Valuation τ sig (Elt F) :=
  Pipeline.withArrays spec0 c (W1 m c) fun w => (R0.dat0 (U1 m) c).arrAt w cfg0.N
theorem W2_arr (c : Dev nD) (w : Fin cfg0.W) :
    W2 m c (Proc.devRef .tc (Pipeline.arrRef spec0 w)) = (R0.dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (R0.dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the batch statistics (the second pallas_call's entry). -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- At the second pallas_call's exit. -/
def W4 (c : Dev nD) : Valuation τ sig (Elt F) :=
  Pipeline.withArrays spec1 c (W3 m c) fun w => (R1.dat1 (U3 m) c).arrAt w cfg1.N
theorem W4_arr (c : Dev nD) (w : Fin cfg1.W) :
    W4 m c (Proc.devRef .tc (Pipeline.arrRef spec1 w)) = (R1.dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (R1.dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ### A buffer no item writes keeps its contents across the item -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- An input window's array is as entered after the first pallas_call. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((R0.dat0 (U1 m) c).arrAt_in w hw _).trans (R0.A_eq0 (U1 m) c w))

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_in m c 0 rfl
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_in m c 1 rfl
    _ = W0 m c (Proc.devRef .tc main_arg1) := W1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (U1 m) c
  | ⟨1, _⟩ => fun c => R1.dat1 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m c) ∗ ∃ r, prngReg c r)

/-! ## The pallas_calls as segments -/

set_option backward.isDefEq.respectTransparency.types false in
/-- The first pallas_call: entered from every unscoped buffer at `W1`, left at `W2`. The generator register and the
    scoped buffers enter the region invariant, which carries the scratch through the grid and gives them back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin0 (U1 m) c)
    unfold Pipeline.ΦA
    iintro ⟨Hp, -, Hr⟩
    isplitl [Hr]; · iexact Hr
    iexact Hp
  hout c := by
    rw [Pipeline.ownSems0_none]
    refine BIBase.Entails.trans (R0.hout0 (U1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The same run read at the result and the five arguments. -/
theorem run_value : θ_run defs (onTc (τ := τ) (main (F := F))) ⟨m, fun _ => 0, ρ⟩ (fun r => ∀ c : Dev nD,
      r.2.mem ((c.tc : Thread nD τ).loc main_v0) = W4 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v0 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

/-- THE FRAME: every weakly fair execution terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ)

end Cert.Kernel.Whole

end
-- ==== Proof.KiRuns0.lean ====
/-
  The first pallas_call (the linear layer with its running column sums), the part its two control cases share:
  the windows' blocks as the region finds them, the branch condition "this is the grid's first point" decided over
  the grid, the staging memrefs at a point, the carried scratch (the binarised weight) as a memref, and the class
  invariant with that scratch owned at some contents.
-/
import proofs.«159027_j9852654977033_1_alg».proof.Proof.Gen.KernelIdeal.Launch
import proofs.«159027_j9852654977033_1_alg».proof.Proof.Gen.KernelIdeal.Skeleton
import proofs.«159027_j9852654977033_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the region is entered with -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved. The rows of x (window 0), the weight (window 1), the bias row (window 2). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's one branch condition -/

/-- The condition of the body's `scf.if`: the grid coordinate is 0. -/
abbrev cond0_0 (i : grid0.Coords) : Prop := (Scalar.cmpi .ne (Scalar.extui (Scalar.cmpi .eq (BitVec.ofNat 32 (i 0).val) 0#32)) 0#32) = 1#1
/-- It holds at the first point only — decided over the grid's 32 points. -/
theorem hcond0_0 : ∀ t : Fin cfg0.N, cond0_0 (grid0.coords t) ↔ t.val = 0 :=
  (by decide +kernel : ∀ t : Fin grid0.N, cond0_0 (grid0.coords t) ↔ t.val = 0)

/-- The two running sums (windows 4 and 5) are written back at the last point only, so not at a point before a later one. -/
theorem noFlush0_4 (t : Fin cfg0.N) (ht : t.val ≠ 0) : (cfg0.win 4).flush ⟨t.val - 1, Nat.lt_of_le_of_lt (Nat.sub_le _ _) t.isLt⟩ = false :=
  Bool.eq_false_iff.mpr fun h => by
    have h1 := (flush0_4 _).mp h; have hN : t.val < 32 := lt_of_lt_of_eq t.isLt (show cfg0.N = 32 from N_0); dsimp only at h1; omega
theorem noFlush0_5 (t : Fin cfg0.N) (ht : t.val ≠ 0) : (cfg0.win 5).flush ⟨t.val - 1, Nat.lt_of_le_of_lt (Nat.sub_le _ _) t.isLt⟩ = false :=
  Bool.eq_false_iff.mpr fun h => by
    have h1 := (flush0_5 _).mp h; have hN : t.val < 32 := lt_of_lt_of_eq t.isLt (show cfg0.N = 32 from N_0); dsimp only at h1; omega

/-! ## The staging memrefs at a point, and the scratch -/

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
/-- The scratch operand: the whole scoped buffer that carries the binarised weight from the first point on. -/
abbrev scM0 : Memref sig .tc .vmem S1024x2048 .bf16 := Memref.whole cc0_scratch0

/-- One view per written buffer's shape, through which its contents are stated (the choice does not matter once the
    written pieces cover the buffer). -/
abbrev VO0_3 : View sig .tc .vmem S512x1024 .f32 := (Memref.whole cc0_stg3_0 : Memref sig .tc .vmem S512x1024 .f32).view
abbrev VO0_4 : View sig .tc .vmem S1x1024 .f32 := (Memref.whole cc0_stg4_0 : Memref sig .tc .vmem S1x1024 .f32).view
abbrev VO0_5 : View sig .tc .vmem S1x1024 .f32 := (Memref.whole cc0_stg5_0 : Memref sig .tc .vmem S1x1024 .f32).view
abbrev VS0 : View sig .tc .vmem S1024x2048 .bf16 := scM0.view

end Cert.KernelIdeal.R0

end
-- ==== Proof.KiRun0A.lean ====
/-
  The first pallas_call's body at the grid's first point: the branch is taken, so the body binarises the weight
  into the scratch, zeroes the two running sums, then computes the block of the linear layer and adds its column
  sums (and those of its squares) onto the zeroed sums. What each written buffer ends with, as the pieces the
  symbolic run finds, with the body's triple.
-/
import proofs.«159027_j9852654977033_1_alg».proof.Proof.KiRuns0

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces (last first) the body's stores leave in the output block, the two running sums and the scratch at a
    point where the branch is taken, with the triple: on whole memrefs — the three inputs at their contents, the
    three outputs and the scratch at anything — the body runs to the continuation holding the inputs as they were and
    each written buffer with its pieces written. -/
noncomputable def kernelRun0_A (c : Dev nD) (i : grid0.Coords) (arg1 : Memref sig .tc .vmem S512x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (hc0 : cond0_0 i)
    (x0 : Vec F S512x2048 .f32) (x1 : Vec F S1024x2048 .f32) (x2 : Vec F S1x1024 .f32) :
    Σ' (L4 : List (View.Piece (Elt F) S512x1024 .f32)) (L5 : List (View.Piece (Elt F) S1x1024 .f32)) (L6 : List (View.Piece (Elt F) S1x1024 .f32)), { LS : List (View.Piece (Elt F) S1024x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS)) -∗ K ⟨⟩))
          ⊢ wp frame (wpE (defs₀ (F := F)) Variants.none c none) E (cc0__matmul_stats_kernel i arg1 harg1 arg2 harg2 arg3 harg3 arg4 harg4 arg5 harg5 arg6 harg6 arg7 harg7) K } := by
  refine ⟨?_, ?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%f2, %hf2, H2⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]; · iexists _; iexact H4
    isplitl [H5]; · iexists _; iexact H5
    isplitl [H6]; · iexists _; iexact H6
    iexists _; iexact H7

end Cert.KernelIdeal.R0

end
-- ==== Proof.KiRun0B.lean ====
/-
  The first pallas_call's body at a later grid point: the branch is not taken, so the body reads the binarised
  weight the scratch carries, computes the block of the linear layer, and adds its column sums (and those of its
  squares) onto the running sums the point before left. What each written buffer ends with, as the pieces the
  symbolic run finds, with the body's triple.
-/
import proofs.«159027_j9852654977033_1_alg».proof.Proof.KiRun0A

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces (last first) the body's stores leave in the output block and the two running sums at a point where the
    branch is not taken, with the triple: on whole memrefs — the three inputs, the two running sums and the scratch at
    their contents, the output block at anything — the body runs to the continuation holding the inputs and the scratch
    as they were and each written buffer with its pieces written. -/
noncomputable def kernelRun0_B (c : Dev nD) (i : grid0.Coords) (arg1 : Memref sig .tc .vmem S512x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (hc0 : ¬cond0_0 i)
    (x0 : Vec F S512x2048 .f32) (x1 : Vec F S1024x2048 .f32) (x2 : Vec F S1x1024 .f32) (xo5 xo6 : Vec F S1x1024 .f32) (xs : Vec F S1024x2048 .bf16) :
    Σ' (L4 : List (View.Piece (Elt F) S512x1024 .f32)) (L5 : List (View.Piece (Elt F) S1x1024 .f32)), { L6 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo5 ∗ owns (c : Thread nD τ) arg6 fullShare xo6 ∗ owns (c : Thread nD τ) arg7 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ owns (c : Thread nD τ) arg7 fullShare xs) -∗ K ⟨⟩))
          ⊢ wp frame (wpE (defs₀ (F := F)) Variants.none c none) E (cc0__matmul_stats_kernel i arg1 harg1 arg2 harg2 arg3 harg3 arg4 harg4 arg5 harg5 arg6 harg6 arg7 harg7) K } := by
  refine ⟨?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%f2, %hf2, H2⟩, ⟨%d4, %f4, -, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2
    obtain rfl := harg5.eq_unread hf5; obtain rfl := harg6.eq_unread hf6; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]; · iexists _; iexact H4
    isplitl [H5]; · iexists _; iexact H5
    isplitl [H6]; · iexists _; iexact H6
    iexists _; isplitr; · ipureintro; exact harg7.read_unread _
    iexact H7

end Cert.KernelIdeal.R0

end
-- ==== Proof.KiPieces0.lean ====
/-
  The first pallas_call's body, read as values: in each control case the written pieces tile their buffers, and what
  each buffer then holds is the body's arithmetic of the blocks it loaded — the linear layer's block
  x·sᵀ + bias (with s the binarised weight), the two running sums advanced by this block's column sums, and at the
  first point the binarised weight itself in the scratch.
-/
import proofs.«159027_j9852654977033_1_alg».proof.Proof.KiRun0B
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## The branch taken (the grid's first point) -/

section A
variable (c : Dev nD) (i : grid0.Coords) (arg1 : Memref sig .tc .vmem S512x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (hc0 : cond0_0 i)
    (x0 : Vec F S512x2048 .f32) (x1 : Vec F S1024x2048 .f32) (x2 : Vec F S1x1024 .f32)

/-- Each written buffer's pieces tile it (checked by evaluation), so they cover it. -/
theorem cover0_A_3 (y : S512x1024.Idx) : ∃ pc ∈ (kernelRun0_A c i arg1 harg1 arg2 harg2 arg3 harg3 arg4 harg4 arg5 harg5 arg6 harg6 arg7 harg7 hc0 x0 x1 x2).1, y ∈ pc.1.set :=
  View.cover_of_tiledL (kernelRun0_A c i arg1 harg1 arg2 harg2 arg3 harg3 arg4 harg4 arg5 harg5 arg6 harg6 arg7 harg7 hc0 x0 x1 x2).1 S512x1024.size (by sl_kernel_rfl) y
theorem cover0_A_4 (y : S1x1024.Idx) : ∃ pc ∈ (kernelRun0_A c i arg1 harg1 arg2 harg2 arg3 harg3 arg4 harg4 arg5 harg5 arg6 harg6 arg7 harg7 hc0 x0 x1 x2).2.1, y ∈ pc.1.set :=
  View.cover_of_tiledL (kernelRun0_A c i arg1 harg1 arg2 harg2 arg3 harg3 arg4 harg4 arg5 harg5 arg6 harg6 arg7 harg7 hc0 x0 x1 x2).2.1 S1x1024.size (by sl_kernel_rfl) y
theorem cover0_A_5 (y : S1x1024.Idx) : ∃ pc ∈ (kernelRun0_A c i arg1 harg1 arg2 harg2 arg3 harg3 arg4 harg4 arg5 harg5 arg6 harg6 arg7 harg7 hc0 x0 x1 x2).2.2.1, y ∈ pc.1.set :=
  View.cover_of_tiledL (kernelRun0_A c i arg1 harg1 arg2 harg2 arg3 harg3 arg4 harg4 arg5 harg5 arg6 harg6 arg7 harg7 hc0 x0 x1 x2).2.2.1 S1x1024.size (by sl_kernel_rfl) y
theorem scover0_A (y : S1024x2048.Idx) : ∃ pc ∈ (kernelRun0_A c i arg1 harg1 arg2 harg2 arg3 harg3 arg4 harg4 arg5 harg5 arg6 harg6 arg7 harg7 hc0 x0 x1 x2).2.2.2.1, y ∈ pc.1.set :=
  View.cover_of_tiledL (kernelRun0_A c i arg1 harg1 arg2 harg2 arg3 harg3 arg4 harg4 arg5 harg5 arg6 harg6 arg7 harg7 hc0 x0 x1 x2).2.2.2.1 S1024x2048.size (by sl_kernel_rfl) y

/-- The output block: the linear layer of the block of x against the weight binarised at this very point. -/
theorem pieceA_3 : VO0_3.read (Elt F) (VO0_3.writes (Elt F) VO0_3.junk (kernelRun0_A c i arg1 harg1 arg2 harg2 arg3 harg3 arg4 harg4 arg5 harg5 arg6 harg6 arg7 harg7 hc0 x0 x1 x2).1) = k0_pay4 x0 (k0_pay1 x1) x2 := by
  rw [View.read_writes_eq_canon _ _ _ (cover0_A_3 c i arg1 harg1 arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg1.read_unread, harg2.read_unread, harg3.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

/-- The running sum: this block's column sums onto the zeros stored just before. -/
theorem pieceA_4 : VO0_4.read (Elt F) (VO0_4.writes (Elt F) VO0_4.junk (kernelRun0_A c i arg1 harg1 arg2 harg2 arg3 harg3 arg4 harg4 arg5 harg5 arg6 harg6 arg7 harg7 hc0 x0 x1 x2).2.1) = k0_pay5 x0 (k0_pay1 x1) x2 k0_pay2 := by
  rw [View.read_writes_eq_canon _ _ _ (cover0_A_4 c i arg1 harg1 arg2 harg2 arg3 harg3 arg4 harg4 arg5 harg5 arg6 harg6 arg7 harg7 hc0 x0 x1 x2)]
  unfold kernelRun0_A
  dsimp only
  sl_unfold_words
  rw [View.canon_cons_unit_zero hz2]
  simp only [View.readAt_eq_ld, harg1.read_unread, harg2.read_unread, harg3.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

/-- The running sum of squares, likewise. -/
theorem pieceA_5 : VO0_5.read (Elt F) (VO0_5.writes (Elt F) VO0_5.junk (kernelRun0_A c i arg1 harg1 arg2 harg2 arg3 harg3 arg4 harg4 arg5 harg5 arg6 harg6 arg7 harg7 hc0 x0 x1 x2).2.2.1) = k0_pay6 x0 (k0_pay1 x1) x2 k0_pay3 := by
  rw [View.read_writes_eq_canon _ _ _ (cover0_A_5 c i arg1 harg1 arg2 harg2 arg3 harg3 arg4 harg4 arg5 harg5 arg6 harg6 arg7 harg7 hc0 x0 x1 x2)]
  unfold kernelRun0_A
  dsimp only
  sl_unfold_words
  rw [View.canon_cons_unit_zero hz2]
  simp only [View.readAt_eq_ld, harg1.read_unread, harg2.read_unread, harg3.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

/-- The scratch: the binarised weight. -/
theorem pieceA_S : VS0.read (Elt F) (VS0.writes (Elt F) VS0.junk (kernelRun0_A c i arg1 harg1 arg2 harg2 arg3 harg3 arg4 harg4 arg5 harg5 arg6 harg6 arg7 harg7 hc0 x0 x1 x2).2.2.2.1) = k0_pay1 x1 := by
  rw [View.read_writes_eq_canon _ _ _ (scover0_A c i arg1 harg1 arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg1.read_unread, harg2.read_unread, harg3.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

end A

/-! ## The branch not taken (every later point) -/

section B
variable (c : Dev nD) (i : grid0.Coords) (arg1 : Memref sig .tc .vmem S512x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (hc0 : ¬cond0_0 i)
    (x0 : Vec F S512x2048 .f32) (x1 : Vec F S1024x2048 .f32) (x2 : Vec F S1x1024 .f32) (xo5 xo6 : Vec F S1x1024 .f32) (xs : Vec F S1024x2048 .bf16)

theorem cover0_B_3 (y : S512x1024.Idx) : ∃ pc ∈ (kernelRun0_B c i arg1 harg1 arg2 harg2 arg3 harg3 arg4 harg4 arg5 harg5 arg6 harg6 arg7 harg7 hc0 x0 x1 x2 xo5 xo6 xs).1, y ∈ pc.1.set :=
  View.cover_of_tiledL (kernelRun0_B c i arg1 harg1 arg2 harg2 arg3 harg3 arg4 harg4 arg5 harg5 arg6 harg6 arg7 harg7 hc0 x0 x1 x2 xo5 xo6 xs).1 S512x1024.size (by sl_kernel_rfl) y
theorem cover0_B_4 (y : S1x1024.Idx) : ∃ pc ∈ (kernelRun0_B c i arg1 harg1 arg2 harg2 arg3 harg3 arg4 harg4 arg5 harg5 arg6 harg6 arg7 harg7 hc0 x0 x1 x2 xo5 xo6 xs).2.1, y ∈ pc.1.set :=
  View.cover_of_tiledL (kernelRun0_B c i arg1 harg1 arg2 harg2 arg3 harg3 arg4 harg4 arg5 harg5 arg6 harg6 arg7 harg7 hc0 x0 x1 x2 xo5 xo6 xs).2.1 S1x1024.size (by sl_kernel_rfl) y
theorem cover0_B_5 (y : S1x1024.Idx) : ∃ pc ∈ (kernelRun0_B c i arg1 harg1 arg2 harg2 arg3 harg3 arg4 harg4 arg5 harg5 arg6 harg6 arg7 harg7 hc0 x0 x1 x2 xo5 xo6 xs).2.2.1, y ∈ pc.1.set :=
  View.cover_of_tiledL (kernelRun0_B c i arg1 harg1 arg2 harg2 arg3 harg3 arg4 harg4 arg5 harg5 arg6 harg6 arg7 harg7 hc0 x0 x1 x2 xo5 xo6 xs).2.2.1 S1x1024.size (by sl_kernel_rfl) y

/-- The output block: the linear layer of the block of x against the binarised weight the scratch carries. -/
theorem pieceB_3 : VO0_3.read (Elt F) (VO0_3.writes (Elt F) VO0_3.junk (kernelRun0_B c i arg1 harg1 arg2 harg2 arg3 harg3 arg4 harg4 arg5 harg5 arg6 harg6 arg7 harg7 hc0 x0 x1 x2 xo5 xo6 xs).1) = k0_pay4 x0 xs x2 := by
  rw [View.read_writes_eq_canon _ _ _ (cover0_B_3 c i arg1 harg1 arg2 harg2 arg3 harg3 arg4 harg4 arg5 harg5 arg6 harg6 arg7 harg7 hc0 x0 x1 x2 xo5 xo6 xs)]
  unfold kernelRun0_B
  dsimp only
  sl_unfold_words
  rw [View.canon_unit_zero hz2]
  simp only [View.readAt_eq_ld, harg1.read_unread, harg2.read_unread, harg3.read_unread, harg5.read_unread, harg6.read_unread, harg7.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

/-- The running sum: this block's column sums onto what the point before left. -/
theorem pieceB_4 : VO0_4.read (Elt F) (VO0_4.writes (Elt F) VO0_4.junk (kernelRun0_B c i arg1 harg1 arg2 harg2 arg3 harg3 arg4 harg4 arg5 harg5 arg6 harg6 arg7 harg7 hc0 x0 x1 x2 xo5 xo6 xs).2.1) = k0_pay5 x0 xs x2 xo5 := by
  rw [View.read_writes_eq_canon _ _ _ (cover0_B_4 c i arg1 harg1 arg2 harg2 arg3 harg3 arg4 harg4 arg5 harg5 arg6 harg6 arg7 harg7 hc0 x0 x1 x2 xo5 xo6 xs)]
  unfold kernelRun0_B
  dsimp only
  sl_unfold_words
  rw [View.canon_unit_zero hz2]
  simp only [View.readAt_eq_ld, harg1.read_unread, harg2.read_unread, harg3.read_unread, harg5.read_unread, harg6.read_unread, harg7.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

/-- The running sum of squares, likewise. -/
theorem pieceB_5 : VO0_5.read (Elt F) (VO0_5.writes (Elt F) VO0_5.junk (kernelRun0_B c i arg1 harg1 arg2 harg2 arg3 harg3 arg4 harg4 arg5 harg5 arg6 harg6 arg7 harg7 hc0 x0 x1 x2 xo5 xo6 xs).2.2.1) = k0_pay6 x0 xs x2 xo6 := by
  rw [View.read_writes_eq_canon _ _ _ (cover0_B_5 c i arg1 harg1 arg2 harg2 arg3 harg3 arg4 harg4 arg5 harg5 arg6 harg6 arg7 harg7 hc0 x0 x1 x2 xo5 xo6 xs)]
  unfold kernelRun0_B
  dsimp only
  sl_unfold_words
  rw [View.canon_unit_zero hz2]
  simp only [View.readAt_eq_ld, harg1.read_unread, harg2.read_unread, harg3.read_unread, harg5.read_unread, harg6.read_unread, harg7.read_unread, View.ld_unit_zero (S := S512x2048) hz2, View.ld_unit_zero (S := S1024x2048) hz2, View.ld_unit_zero (S := S1x1024) hz2, View.ld_unit_zero (S := S512x1024) hz2, View.readCov_unit_zero arg7.view hz2, View.readCov_unit_zero arg5.view hz2, View.readCov_unit_zero arg6.view hz2]

end B

end Cert.KernelIdeal.R0

end
-- ==== Proof.KiFrame0.lean ====
/-
  The first pallas_call's proof data and body obligation. After the body at grid point t: the three input windows
  hold their blocks; the output block holds the linear layer of the t-th block of rows of x against the binarised
  weight; the two running sums hold, at point 0, the first block's column sums (and sums of squares) onto zero and,
  at a later point, this block's onto what the point before left (the sums' windows keep their block index, so the
  pipeline neither re-fetches nor writes them back between points); the scratch holds, from the first point on, the
  weight binarised at the first point. The region invariant carries the scratch at that value from point to point.
-/
import proofs.«159027_j9852654977033_1_alg».proof.Proof.KiPieces0

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers of the class invariant, the scratch split off -/

/-- The class invariant's scoped buffers are the scratch and the other pallas_call's staging buffers. -/
theorem scoped_split (c : Dev nD) : ∃ R : sProp 𝕄, (Pipeline.scopedRest (Ix := Unit) (Name := ℕ) (U := UR sig nD τ) (Lvl := ℕ) (Val := Elt F) spec0 c : sProp 𝕄)
    = iprop((∃ f : Buf (Elt F) ((c : Thread nD τ).loc cc0_scratch0), ((c : Thread nD τ).loc cc0_scratch0) ↦{fullShare} f) ∗ R) :=
  ⟨_, scopedRest0_eq c⟩
/-- The scoped buffers other than the scratch, each whole at some contents: the body never touches them. -/
def restS (c : Dev nD) : sProp 𝕄 := Classical.choose (scoped_split (F := F) c)
theorem scopedRest0_split (c : Dev nD) : (Pipeline.scopedRest (Ix := Unit) (Name := ℕ) (U := UR sig nD τ) (Lvl := ℕ) (Val := Elt F) spec0 c : sProp 𝕄)
    = iprop((∃ f : Buf (Elt F) ((c : Thread nD τ).loc cc0_scratch0), ((c : Thread nD τ).loc cc0_scratch0) ↦{fullShare} f) ∗ restS (F := F) c) :=
  Classical.choose_spec (scoped_split (F := F) c)

/-- The class invariant with the scratch as a memref owned at some contents. -/
theorem PhiA0_eq (c : Dev nD) :
    (Pipeline.ΦA spec0 c : sProp 𝕄)
      = iprop(iprop((∃ d, owns (c : Thread nD τ) scM0 fullShare d) ∗ restS (F := F) c) ∗ (∃ r, prngReg c r)) := by
  unfold Pipeline.ΦA; rw [scopedRest0_split]; simp only [scM0, owns_whole]; try rfl

section Frame
variable (V : (c : Dev nD) → (b : Ref sig .tc) → Buf (Elt F) ((c : Thread nD τ).loc b))

/-- The grid's first point. -/
def t00 : Fin cfg0.N := ⟨0, by have h : cfg0.N = 32 := N_0; omega⟩

/-- The blocks the body loads at point `t`: rows of x, the weight, the bias row. -/
abbrev xb (c : Dev nD) (t : Fin cfg0.N) : Vec F S512x2048 .f32 := iblk0 V c 0 t
abbrev wblk (c : Dev nD) (t : Fin cfg0.N) : Vec F S1024x2048 .f32 := iblk0 V c 1 t
abbrev bb (c : Dev nD) (t : Fin cfg0.N) : Vec F S1x1024 .f32 := iblk0 V c 2 t

/-- The binarised weight the scratch carries from the first point on. -/
def wb0 (c : Dev nD) : Vec F S1024x2048 .bf16 := k0_pay1 (wblk V c t00)

/-- The output block after point `t`: the linear layer of the t-th block of rows. -/
def yAt0 (c : Dev nD) (t : Fin cfg0.N) : Vec F S512x1024 .f32 := k0_pay4 (xb V c t) (wb0 V c) (bb V c t)

/-- THE ACCUMULATION: the two running sums after the body at position `n`. -/
def accAt0 (c : Dev nD) : (n : ℕ) → n < cfg0.N → Vec F S1x1024 .f32 × Vec F S1x1024 .f32
  | 0, hn => (k0_pay5 (xb V c ⟨0, hn⟩) (wb0 V c) (bb V c ⟨0, hn⟩) k0_pay2, k0_pay6 (xb V c ⟨0, hn⟩) (wb0 V c) (bb V c ⟨0, hn⟩) k0_pay3)
  | n + 1, hn => (k0_pay5 (xb V c ⟨n + 1, hn⟩) (wb0 V c) (bb V c ⟨n + 1, hn⟩) (accAt0 c n (Nat.lt_of_succ_lt hn)).1,
      k0_pay6 (xb V c ⟨n + 1, hn⟩) (wb0 V c) (bb V c ⟨n + 1, hn⟩) (accAt0 c n (Nat.lt_of_succ_lt hn)).2)

theorem accAt0_zero (c : Dev nD) (t : Fin cfg0.N) (h0 : t.val = 0) :
    accAt0 V c t.val t.isLt = (k0_pay5 (xb V c t) (wb0 V c) (bb V c t) k0_pay2, k0_pay6 (xb V c t) (wb0 V c) (bb V c t) k0_pay3) := by
  obtain ⟨n, hn⟩ := t
  cases n with
  | zero => rfl
  | succ n => exact absurd h0 (Nat.succ_ne_zero n)

theorem accAt0_pos (c : Dev nD) (t : Fin cfg0.N) (h0 : t.val ≠ 0) :
    accAt0 V c t.val t.isLt = (k0_pay5 (xb V c t) (wb0 V c) (bb V c t) (accAt0 V c (t.val - 1) (Nat.lt_of_le_of_lt (Nat.sub_le _ _) t.isLt)).1,
      k0_pay6 (xb V c t) (wb0 V c) (bb V c t) (accAt0 V c (t.val - 1) (Nat.lt_of_le_of_lt (Nat.sub_le _ _) t.isLt)).2) := by
  obtain ⟨n, hn⟩ := t
  cases n with
  | zero => exact absurd rfl h0
  | succ n => rfl

/-- The region invariant before position `n`: before the first point the class's (every scoped buffer at anything);
    afterwards the scratch at the binarised weight, the other scoped buffers at anything, the generator register at
    some state. -/
def PhiS (c : Dev nD) : (n : ℕ) → n ≤ cfg0.N → sProp 𝕄
  | 0, _ => Pipeline.ΦA spec0 c
  | _ + 1, _ => iprop(iprop(owns (c : Thread nD τ) scM0 fullShare (wb0 V c) ∗ restS (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (wb0 V c) ∗ restS (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare (wb0 V c) ∗ restS (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => yAt0 V c t
    | ⟨4, _⟩ => (accAt0 V c t.val t.isLt).1
    | ⟨5, _⟩ => (accAt0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = yAt0 V c t := by dsimp only [dat0]
theorem after0_4 (c : Dev nD) (t : Fin cfg0.N) : (dat0 V c).after 4 t = (accAt0 V c t.val t.isLt).1 := by dsimp only [dat0]
theorem after0_5 (c : Dev nD) (t : Fin cfg0.N) : (dat0 V c).after 5 t = (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At a later point each running sum's buffer holds what the body left at the point before: it was not written back
    between, and the window is live and uncut. -/
theorem before0_4_B (c : Dev nD) (t : Fin cfg0.N) (h0 : t.val ≠ 0) (d) :
    (dat0 V c).before 4 t d = (accAt0 V c (t.val - 1) (Nat.lt_of_le_of_lt (Nat.sub_le _ _) t.isLt)).1 := by
  rw [Dat.before_out_kept _ 4 rfl t h0 (noFlush0_4 t h0) (fun _ => rfl) (fun _ _ => rfl)]
  dsimp only [dat0]
theorem before0_5_B (c : Dev nD) (t : Fin cfg0.N) (h0 : t.val ≠ 0) (d) :
    (dat0 V c).before 5 t d = (accAt0 V c (t.val - 1) (Nat.lt_of_le_of_lt (Nat.sub_le _ _) t.isLt)).2 := by
  rw [Dat.before_out_kept _ 5 rfl t h0 (noFlush0_5 t h0) (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4800000 in
/-- The body at any point. The inputs' memrefs hold their blocks. At the first point the invariant hands the body every
    scoped buffer at anything and the run of the taken branch applies; the scratch comes back at the binarised weight.
    At a later point the invariant hands it the scratch at the binarised weight and the running sums hold what the point
    before left, so the run of the other branch applies; the scratch comes back as it was. The other scoped buffers, the
    generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5]
  unfold yAt0
  by_cases h0 : t.val = 0
  · rw [accAt0_zero V c t h0, PhiS_castSucc V c t, PhiS_zero V c _ _ h0, PhiA0_eq]
    have ht : t = t00 := Fin.ext h0
    unfold wb0
    rw [← ht]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (xb V c t) (wblk V c t) (bb V c t)).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, ⟨%e3, H3⟩, ⟨%e4, H4⟩, ⟨%e5, H5⟩, ⟨%es, HS⟩⟩
    isplitl [HS HR Hg]
    · isplitl [HS HR]
      · isplitl [HS]
        · unfold owns; iexists _; isplitr
          swap; · iexact HS
          ipureintro; exact (View.read_writes_of_cover _ _ _ _ _ (scover0_A c _ _ _ _ _ _ _ _ _ _ _ _ _ _ _ _ _ _ _)).trans (pieceA_S c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact (View.read_writes_of_cover _ _ _ _ _ (cover0_A_3 c _ _ _ _ _ _ _ _ _ _ _ _ _ _ _ _ _ _ _)).trans (pieceA_3 c _ _ _ _ _ _ _ _ _ _ _ _ _ _ _ _ _ _ _)
    isplitl [H4]
    · unfold owns; iexists _; isplitr
      swap; · iexact H4
      ipureintro; exact (View.read_writes_of_cover _ _ _ _ _ (cover0_A_4 c _ _ _ _ _ _ _ _ _ _ _ _ _ _ _ _ _ _ _)).trans (pieceA_4 c _ _ _ _ _ _ _ _ _ _ _ _ _ _ _ _ _ _ _)
    unfold owns; iexists _; isplitr
    swap; · iexact H5
    ipureintro; exact (View.read_writes_of_cover _ _ _ _ _ (cover0_A_5 c _ _ _ _ _ _ _ _ _ _ _ _ _ _ _ _ _ _ _)).trans (pieceA_5 c _ _ _ _ _ _ _ _ _ _ _ _ _ _ _ _ _ _ _)
  · rw [accAt0_pos V c t h0, PhiS_castSucc V c t, PhiS_pos V c _ _ h0]
    simp only [before0_4_B V c t h0, before0_5_B V c t h0]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (xb V c t) (wblk V c t) (bb V c t) _ _ (wb0 V c)).2.2.2 Set.univ _)
    isplitl [H0]; · iexact H0
    isplitl [H1]; · iexact H1
    isplitl [H2]; · iexact H2
    isplitl [H3]; · iexists _; iexact H3
    isplitl [H4]; · iexact H4
    isplitl [H5]; · iexact H5
    isplitl [HS]; · iexact HS
    iintro ⟨H0, H1, H2, ⟨%e3, H3⟩, ⟨%e4, H4⟩, ⟨%e5, H5⟩, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact (View.read_writes_of_cover _ _ _ _ _ (cover0_B_3 c _ _ _ _ _ _ _ _ _ _ _ _ _ _ _ _ _ _ _ _ _ _)).trans (pieceB_3 c _ _ _ _ _ _ _ _ _ _ _ _ _ _ _ _ _ _ _ _ _ _)
    isplitl [H4]
    · unfold owns; iexists _; isplitr
      swap; · iexact H4
      ipureintro; exact (View.read_writes_of_cover _ _ _ _ _ (cover0_B_4 c _ _ _ _ _ _ _ _ _ _ _ _ _ _ _ _ _ _ _ _ _ _)).trans (pieceB_4 c _ _ _ _ _ _ _ _ _ _ _ _ _ _ _ _ _ _ _ _ _ _)
    unfold owns; iexists _; isplitr
    swap; · iexact H5
    ipureintro; exact (View.read_writes_of_cover _ _ _ _ _ (cover0_B_5 c _ _ _ _ _ _ _ _ _ _ _ _ _ _ _ _ _ _ _ _ _ _)).trans (pieceB_5 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, HR⟩, Hg⟩
  isplitl [HS HR]
  · isplitl [HS]; · iexists _; iexact HS
    iexact HR
  iexact Hg

end Frame

end Cert.KernelIdeal.R0

end
-- ==== Proof.KiRegion1.lean ====
import proofs.«159027_j9852654977033_1_alg».proof.Proof.Gen.KernelIdeal.Launch
import proofs.«159027_j9852654977033_1_alg».proof.Proof.Gen.KernelIdeal.Skeleton
import proofs.«159027_j9852654977033_1_alg».proof.Proof.Gen.KernelIdeal.Points
import Idealize.ShloMosaic.Lib.Pipeline.FrameBody
import Idealize.ShloMosaic.Lib.Ring
import Idealize.ShloMosaic.Lib.Tactic

/-!
# The normalisation kernel on its grid of 16 row blocks: what each point's body finds and leaves

The second kernel of the program walks the [16384,1024] array of centred products in 16 blocks of 1024 rows.
At point `t` it reads block `t` of that array (window 0) and four [1,1024] rows (windows 1 to 4: the column
means, the column scales and the two affine rows), and writes block `t` of the result (window 5):
`((x − mean) · scale) · gamma + beta`, each row broadcast down the 1024 rows of the block.

The four rows have block index (0,0) at every point, so they are fetched once, at the first point, and the
staging buffer still holds them at every later point: an input window whose body leaves its block in place
holds at every point what a fetch there would put in it, whether or not it was fetched there.
The body's one store covers the whole output block, so what the output buffer holds after the body is a
function of the five input blocks alone.
-/

-- membership in a rectangle of 1024 × 1024 entries recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a block of 1024 rows, fetched at every point) holds its block at every point, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input windows 1 to 4 (one [1,1024] row each, block index (0,0) throughout, fetched at the first point only) hold
    their block at every point: where the row is not fetched the block index has not moved, and the buffer still
    holds the previous point's block, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [1024,1024] block. -/
abbrev rBlk : Rect S1024x1024 := Rect.unit (s := S1024x1024) ![0, 0] S1024x1024.size inb_S1024x1024_S1024x1024_0_0
/-- The whole [1,1024] row. -/
abbrev rRow : Rect S1x1024 := Rect.unit (s := S1x1024) ![0, 0] S1x1024.size inb_S1x1024_S1x1024_0_0

/-! ## What the body leaves in the output window's buffer -/

/-- Window 5's staging buffer after the body, from the five input blocks: its one store, of
    `((x0 − x1) · x2) · x3 + x4` with the rows broadcast down the block, over the whole block. -/
def out1_5 (x0 : Vec F S1024x1024 .f32) (x1 x2 x3 x4 : Vec F S1x1024 .f32) : Vec F S1024x1024 .f32 :=
  View.canon [⟨rBlk, k1_pay1 (View.ld x0 rBlk) (View.ld x1 rRow) (View.ld x2 rRow) (View.ld x3 rRow) (View.ld x4 rRow)⟩]

/-- The one store is of the whole block, so it covers the buffer. -/
theorem cover1_5 (p0 : Vec F S1024x1024 .f32) (y : S1024x1024.Idx) :
    ∃ pc ∈ ([⟨rBlk, p0⟩] : List (View.Piece (Elt F) S1024x1024 .f32)), y ∈ pc.1.set :=
  View.cover_of_tiled [⟨rBlk, p0⟩] S1024x1024.size (by rfl) y

/-! ## The body's triple -/

set_option maxHeartbeats 1000000 in
/-- The kernel body on whole staging memrefs, the five inputs' at read contents `x0 … x4` and the output's at
    anything, runs to the continuation holding the inputs' as they were and the output's at `out1_5` of the inputs'. -/
theorem sound_kernel1 (c : Dev nD) (E : Set ℕ) (i : grid1.Coords)
    (arg1 : Memref sig .tc .vmem S1024x1024 .f32) (harg1 : arg1.IsWhole) (arg2 : Memref sig .tc .vmem S1x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1024x1024 .f32) (harg6 : arg6.IsWhole)
    (x0 : Vec F S1024x1024 .f32) (x1 x2 x3 x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__normalize_kernel i arg1 harg1 arg2 harg2 arg3 harg3 arg4 harg4 arg5 harg5 arg6 harg6) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the kernel's pipeline on core `c`: the arrays as the region finds them (`V`); after the body at
    point `t` each input's buffer at its block and the output's at `out1_5` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.KiWhole.lean ====
/-
  The idealized kernel program's run, whole: @main is a reshape of the bias, the first pallas_call, fourteen host
  operations (the batch statistics from the two running sums), and the second pallas_call. The buffers' contents at
  each boundary are a fold from the launch memory: after a host stretch what its operations compute, after a
  pallas_call its windows' arrays at what the pipeline's write-backs leave and every other buffer as before. Each
  pallas_call is a segment whose arrays are split out of the unscoped buffers on entry and put back at the exit
  contents; the first one's invariant also carries its scratch. Every weakly fair execution terminates with every
  unscoped buffer at the last boundary's contents: the result array there, and each argument as launched (no host
  operation writes one, and a pallas_call only reads it).
-/
import proofs.«159027_j9852654977033_1_alg».proof.Proof.KiFrame0
import proofs.«159027_j9852654977033_1_alg».proof.Proof.KiRegion1
import proofs.«159027_j9852654977033_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev W0 (c : Dev nD) : Valuation τ sig (Elt F) := fun b => m (c, b)
/-- After the bias's reshape (the first pallas_call's entry). -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- At the first pallas_call's exit: its arrays at what the pipeline leaves, every other buffer as entered. -/
def W2 (c : Dev nD) : Valuation τ sig (Elt F) :=
  Pipeline.withArrays spec0 c (W1 m c) fun w => (R0.dat0 (U1 m) c).arrAt w cfg0.N
theorem W2_arr (c : Dev nD) (w : Fin cfg0.W) :
    W2 m c (Proc.devRef .tc (Pipeline.arrRef spec0 w)) = (R0.dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (R0.dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the batch statistics (the second pallas_call's entry). -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- At the second pallas_call's exit. -/
def W4 (c : Dev nD) : Valuation τ sig (Elt F) :=
  Pipeline.withArrays spec1 c (W3 m c) fun w => (R1.dat1 (U3 m) c).arrAt w cfg1.N
theorem W4_arr (c : Dev nD) (w : Fin cfg1.W) :
    W4 m c (Proc.devRef .tc (Pipeline.arrRef spec1 w)) = (R1.dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (R1.dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ### A buffer no item writes keeps its contents across the item -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- An input window's array is as entered after the first pallas_call. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((R0.dat0 (U1 m) c).arrAt_in w hw _).trans (R0.A_eq0 (U1 m) c w))

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_in m c 0 rfl
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_in m c 1 rfl
    _ = W0 m c (Proc.devRef .tc main_arg1) := W1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (U1 m) c
  | ⟨1, _⟩ => fun c => R1.dat1 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m c) ∗ ∃ r, prngReg c r)

/-! ## The pallas_calls as segments -/

set_option backward.isDefEq.respectTransparency.types false in
/-- The first pallas_call: entered from every unscoped buffer at `W1`, left at `W2`. The generator register and the
    scoped buffers enter the region invariant, which carries the scratch through the grid and gives them back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin0 (U1 m) c)
    unfold Pipeline.ΦA
    iintro ⟨Hp, -, Hr⟩
    isplitl [Hr]; · iexact Hr
    iexact Hp
  hout c := by
    rw [Pipeline.ownSems0_none]
    refine BIBase.Entails.trans (R0.hout0 (U1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The same run read at the result and the five arguments. -/
theorem run_value : θ_run defs (onTc (τ := τ) (main (F := F))) ⟨m, fun _ => 0, ρ⟩ (fun r => ∀ c : Dev nD,
      r.2.mem ((c.tc : Thread nD τ).loc main_v0) = W4 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v0 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

/-- THE FRAME: every weakly fair execution terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ)

end Cert.KernelIdeal.Whole

end
-- ==== Proof.Spec.lean ====
/-
  The function both programs compute, index by index, on the extended reals.

  Inputs: x : [16384, 2048], w : [1024, 2048], b, g, be : [1024].
  * the binarised weight s(o,k) is +1 where w(o,k) ≥ 0 and −1 elsewhere;
  * the linear layer  y(r,o) = Σ_k x(r,k) · s(o,k) + b(o);
  * per column o, over the 16384 rows:  the sum Σ_r y(r,o), the sum of squares Σ_r y(r,o)²,
    the mean μ(o) = sum / 16384, the variance in its "mean of squares minus square of the mean" form
    v(o) = sumsq / 16384 − μ(o)·μ(o), and the inverse deviation 1/sqrt(v(o) + ε);
  * the result  ((y(r,o) − μ(o)) · invstd(o)) · g(o) + be(o).
  The float literals stay as their words: the same word on both sides is never evaluated.
-/
import Idealize.ShloMosaic.PureOps.Ideal
import Idealize.ShloMosaic.Lib.ValueIdx

noncomputable section

open scoped BigOperators

namespace Cert.Spec

open Idealize.ShloMosaic Idealize.ShloMosaic.ValueIdx

/-- The words the programs spell: 0, 1, −1, the row count 16384, and ε. -/
abbrev zeroW : EReal := Ideal.ofBits .f32 0x00000000#32
abbrev oneW : EReal := Ideal.ofBits .f32 0x3F800000#32
abbrev negOneW : EReal := Ideal.ofBits .f32 0xBF800000#32
abbrev countW : EReal := Ideal.ofBits .f32 0x46800000#32
abbrev epsW : EReal := Ideal.ofBits .f32 0x3727C5AC#32

abbrev XIdx : Type := (⟨2, ![16384, 2048]⟩ : Shape).Idx
abbrev WIdx : Type := (⟨2, ![1024, 2048]⟩ : Shape).Idx
abbrev VIdx : Type := (⟨1, ![1024]⟩ : Shape).Idx
abbrev YIdx : Type := (⟨2, ![16384, 1024]⟩ : Shape).Idx

/-- The binarised weight: +1 where the weight is at least 0, −1 elsewhere. -/
def sgn (w : WIdx → EReal) (o : Fin 1024) (k : Fin 2048) : EReal :=
  Scalar.select (FloatOps.cmpf (F := Ideal) (φ := .f32) .oge (w (ix2 o k)) zeroW) oneW negOneW

/-- The linear layer: row r of x against the binarised row o of w, plus the bias. -/
def lin (x : XIdx → EReal) (w : WIdx → EReal) (b : VIdx → EReal) (r : Fin 16384) (o : Fin 1024) : EReal :=
  (∑ k : Fin 2048, x (ix2 r k) * sgn w o k) + b (ix1 o)

/-- Column o's sum over all rows. -/
def colSum (x : XIdx → EReal) (w : WIdx → EReal) (b : VIdx → EReal) (o : Fin 1024) : EReal :=
  ∑ r : Fin 16384, lin x w b r o

/-- Column o's sum of squares over all rows. -/
def colSumSq (x : XIdx → EReal) (w : WIdx → EReal) (b : VIdx → EReal) (o : Fin 1024) : EReal :=
  ∑ r : Fin 16384, lin x w b r o * lin x w b r o

/-- The column mean. -/
def mean (x : XIdx → EReal) (w : WIdx → EReal) (b : VIdx → EReal) (o : Fin 1024) : EReal :=
  Ideal.div (colSum x w b o) countW

/-- The column variance, as the mean of the squares minus the square of the mean. -/
def var (x : XIdx → EReal) (w : WIdx → EReal) (b : VIdx → EReal) (o : Fin 1024) : EReal :=
  Ideal.div (colSumSq x w b o) countW - mean x w b o * mean x w b o

/-- The inverse standard deviation 1/sqrt(var + ε). -/
def invStd (x : XIdx → EReal) (w : WIdx → EReal) (b : VIdx → EReal) (o : Fin 1024) : EReal :=
  Ideal.rsqrt (var x w b o + epsW)

/-- The normalised, scaled and shifted entry (r, o). -/
def outAt (x : XIdx → EReal) (w : WIdx → EReal) (b g be : VIdx → EReal) (r : Fin 16384) (o : Fin 1024) : EReal :=
  (lin x w b r o - mean x w b o) * invStd x w b o * g (ix1 o) + be (ix1 o)

/-- The whole result array. -/
def G (x : XIdx → EReal) (w : WIdx → EReal) (b g be : VIdx → EReal) : YIdx → EReal :=
  fun i => outAt x w b g be (i 0) (i 1)

theorem G_ix2 (x : XIdx → EReal) (w : WIdx → EReal) (b g be : VIdx → EReal) (r : Fin 16384) (o : Fin 1024) :
    G x w b g be (ix2 r o) = outAt x w b g be r o := rfl

end Cert.Spec

end
-- ==== Proof.LibDotRhsT.lean ====
/-
  A matrix product with the right operand transposed, at the ideal values, read at an index.
  For the dimension numbers of an M×K by N×K product (`DotDims.transposedRhs M K N`: both operands contracted on their
  last axis, no batch axis) the kernel's `tpu.matmul` into a zero accumulator is, at the output index (a, b), the sum
  over k < K of l(a, k) · r(b, k) on the extended reals.
-/
import Idealize.ShloMosaic.PureOps.Ideal.Laws
import Idealize.ShloMosaic.Lib.ValueIdx

noncomputable section

namespace Cert.LibDotRhsT

open Idealize.ShloMosaic Idealize.ShloMosaic.ValueIdx

variable (M K N : Nat)

/-- The left operand's row is the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- The left operand's column is the contraction index. -/
theorem lhs1 (i : (⟨2, ![M, N]⟩ : Shape).Idx) (q : (DotDims.transposedRhs M K N).contr.Idx) :
    ((DotDims.transposedRhs M K N).lhsIdx i q 1).val
      = (q ⟨0, by rw [(DotDims.transposedRhs M K N).rank_contr]; exact Nat.one_pos⟩).val :=
  (DotDims.transposedRhs M K N).lhsIdx_val_of_single rfl i q

/-- The right operand's row is the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- The right operand's column is the contraction index. -/
theorem rhs1 (i : (⟨2, ![M, N]⟩ : Shape).Idx) (q : (DotDims.transposedRhs M K N).contr.Idx) :
    ((DotDims.transposedRhs M K N).rhsIdx i q 1).val
      = (q ⟨0, by rw [(DotDims.transposedRhs M K N).rank_contr]; exact Nat.one_pos⟩).val :=
  (DotDims.transposedRhs M K N).rhsIdx_val_of_single rfl i q

/-- The contraction's sum, re-indexed by k < K. -/
theorem sum_rhsT {φ₁ φ₂ : FTy} (l : FVec Ideal ⟨2, ![M, K]⟩ φ₁) (r : FVec Ideal ⟨2, ![N, K]⟩ φ₂) (j : (⟨2, ![M, N]⟩ : Shape).Idx) :
    ∑ k : (DotDims.transposedRhs M K N).contr.Idx,
        l ((DotDims.transposedRhs M K N).lhsIdx j k) * r ((DotDims.transposedRhs M K N).rhsIdx j k)
      = ∑ k : Fin K, l (ix2 (j 0) k) * r (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs0 M K N _ _
      | ⟨1, _⟩ => exact (lhs1 M K N _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs0 M K N _ _
      | ⟨1, _⟩ => exact (rhs1 M K N _ _).trans hk)
  exact congr (congrArg HMul.hMul (congrArg l el)) (congrArg r er)

/-- The kernel's product into a zero accumulator, at an index. -/
theorem matmul_rhsT {φ₁ φ₂ : FTy} (prec : Option ContractPrecision) (l : FVec Ideal ⟨2, ![M, K]⟩ φ₁) (r : FVec Ideal ⟨2, ![N, K]⟩ φ₂)
    (j : (⟨2, ![M, N]⟩ : Shape).Idx) :
    matmul (F := Ideal) (DotDims.transposedRhs M K N) prec l r (constant ⟨2, ![M, N]⟩ .f32 0x00000000#32) j
      = ∑ k : Fin K, l (ix2 (j 0) k) * r (ix2 (j 1) k) :=
  (Ideal.matmul_constant_zero_apply (DotDims.transposedRhs M K N) prec l r j).trans (sum_rhsT M K N l r j)

end Cert.LibDotRhsT

end
-- ==== Proof.KiPayloads.lean ====
/-
  The first kernel's arithmetic, read entry by entry on the extended reals.

  * The weight block: every entry of the stored block is the binarised weight, +1 where the weight is at least 0 and −1
    elsewhere (the change of float format is the identity here, and so is a shape cast to the same shape).
  * The two accumulator rows are started at 0.
  * One block of 512 rows of the linear layer: entry (p, q) is Σ_k x(p,k)·s(q,k) + b(q) — a matrix product with both
    operands contracted on their last axis, into a zero accumulator, plus the bias row broadcast down the rows.
  * The two accumulator updates: the row s gains, at column q, the sum down column q of the block, respectively of
    the block's squares (a sum along axis 0 from 0, the resulting vector cast to a row).
-/
import proofs.«159027_j9852654977033_1_alg».proof.Proof.Gen.KernelIdeal.Skeleton
import proofs.«159027_j9852654977033_1_alg».proof.Proof.Spec
import proofs.«159027_j9852654977033_1_alg».proof.Proof.LibDotRhsT
import Idealize.ShloMosaic.Lib.Pipeline.Value
import Idealize.ShloMosaic.Lib.ValueLayout
import Idealize.ShloMosaic.PureOps.Ideal.Laws

noncomputable section

open scoped BigOperators

namespace Cert.KernelIdeal.R0V

open Cert.KernelIdeal Cert.KernelIdeal.Gen Idealize.ShloMosaic Idealize.ShloMosaic.ValueIdx

/-! ### The weight block and the accumulators' start -/

/-- Entry (o, k) of the stored weight block is the binarised weight. -/
theorem pay1_at (w : Vec Ideal S1024x2048 .f32) (o : Fin 1024) (k : Fin 2048) :
    k0_pay1 (F := Ideal) w (ix2 o k) = Cert.Spec.sgn w o k := by
  unfold k0_pay1
  rw [shapeCast_self]
  rfl

/-- The sum row starts at 0. -/
theorem pay2_at (q : Fin 1024) : k0_pay2 (F := Ideal) (ix2 0 q) = 0 := by
  unfold k0_pay2
  exact Ideal.ofBits_zero_f32

/-- The sum-of-squares row starts at 0. -/
theorem pay3_at (q : Fin 1024) : k0_pay3 (F := Ideal) (ix2 0 q) = 0 := by
  unfold k0_pay3
  exact Ideal.ofBits_zero_f32

/-! ### One block of the linear layer -/

/-- The kernel's dimension numbers are those of an M×K by N×K product: the same lists, and the well-formedness
    proofs do not matter. -/
theorem dot_eq : dot_S512x2048_S1024x2048_S512x1024_1_1_0_0_n_n = DotDims.transposedRhs 512 2048 1024 := rfl

/-- The product into a zero accumulator at (p, q): row p of the left operand against row q of the right. -/
theorem matmul_at (l : FVec Ideal S512x2048 .bf16) (r : FVec Ideal S1024x2048 .bf16) (p : Fin 512) (q : Fin 1024) :
    matmul (F := Ideal) dot_S512x2048_S1024x2048_S512x1024_1_1_0_0_n_n none l r (constant S512x1024 .f32 0x00000000#32) (ix2 p q)
      = ∑ k : Fin 2048, l (ix2 p k) * r (ix2 q k) := by
  rw [dot_eq]
  exact Cert.LibDotRhsT.matmul_rhsT 512 2048 1024 none l r (ix2 p q)

/-- Entry (p, q) of the block: the row of x against the row of the stored weight, plus the bias at q. -/
theorem pay4_at (x : Vec Ideal S512x2048 .f32) (wb : Vec Ideal S1024x2048 .bf16) (b : Vec Ideal S1x1024 .f32)
    (p : Fin 512) (q : Fin 1024) :
    k0_pay4 (F := Ideal) x wb b (ix2 p q) = (∑ k : Fin 2048, x (ix2 p k) * wb (ix2 q k)) + b (ix2 0 q) := by
  unfold k0_pay4
  rw [shapeCast_self]
  exact congr (congrArg HAdd.hAdd (matmul_at _ wb p q)) (broadcastTo_1b_ab_apply b broadcasts_S1x1024_S512x1024 p q)

/-! ### The column sums -/

/-- Over position q of the reduced vector, with p on the reduced (first) axis, lies the block's entry (p, q). -/
theorem lift_at (h : S512x1024.Reduces [0] S1024) (q : Fin 1024) (p : Fin 512) : h.lift (ix1 q) p = ix2 p q :=
  funext fun d => Fin.ext (by match d with | ⟨0, _⟩ => rfl | ⟨1, _⟩ => rfl)

/-- A block summed down its columns from 0, the vector of sums cast to a row: at column q, Σ_p of the entries (p, q). -/
theorem colsum_at (src : FVec Ideal S512x1024 .f32) (q : Fin 1024) :
    shapeCast S1x1024 (multiReduction (F := Ideal) .add [0] S1024 src 0x00000000#32 reduces_S512x1024_S1024 (.inl rfl) rfl)
        shapeCasts_S1024_S1x1024 (ix2 0 q)
      = ∑ p : Fin 512, src (ix2 p q) := by
  refine (shapeCast_a_1a_apply _ shapeCasts_S1024_S1x1024 0 q).trans ?_
  refine (Ideal.multiReduction_add_single src 0x00000000#32 reduces_S512x1024_S1024 (.inl rfl) rfl (ix1 q)).trans ?_
  exact Finset.sum_congr rfl fun p _ => congrArg src (lift_at _ q p)

/-- The sum row after this block: what it held plus the block's column sums. -/
theorem pay5_at (x : Vec Ideal S512x2048 .f32) (wb : Vec Ideal S1024x2048 .bf16) (b : Vec Ideal S1x1024 .f32)
    (s : Vec Ideal S1x1024 .f32) (q : Fin 1024) :
    k0_pay5 (F := Ideal) x wb b s (ix2 0 q) = s (ix2 0 q) + ∑ p : Fin 512, k0_pay4 (F := Ideal) x wb b (ix2 p q) := by
  unfold k0_pay5
  rw [shapeCast_self]
  exact congrArg (s (ix2 0 q) + ·) (colsum_at (k0_pay4 (F := Ideal) x wb b) q)

/-- The sum-of-squares row after this block: what it held plus the column sums of the block's squares. -/
theorem pay6_at (x : Vec Ideal S512x2048 .f32) (wb : Vec Ideal S1024x2048 .bf16) (b : Vec Ideal S1x1024 .f32)
    (s : Vec Ideal S1x1024 .f32) (q : Fin 1024) :
    k0_pay6 (F := Ideal) x wb b s (ix2 0 q)
      = s (ix2 0 q) + ∑ p : Fin 512, k0_pay4 (F := Ideal) x wb b (ix2 p q) * k0_pay4 (F := Ideal) x wb b (ix2 p q) := by
  unfold k0_pay6
  rw [shapeCast_self]
  exact congrArg (s (ix2 0 q) + ·) (colsum_at (mulf (k0_pay4 (F := Ideal) x wb b) (k0_pay4 (F := Ideal) x wb b)) q)

end Cert.KernelIdeal.R0V

end
-- ==== Proof.KiValue0.lean ====
/-
  The first pallas_call's arrays after its 32 grid points, index by index, at the ideal instance. With X the
  [16384,2048] input, W the [1024,2048] weight and B the [1,1024] bias row as the region finds them:
  entry (r, o) of the first output is  Σ_k X(r,k) · s(o,k) + B(0,o),  s the binarised weight (+1 where W ≥ 0, else −1).
  Entry (p, q) of the block written at point t is entry (512·t + p, q) of that array: the block of X read there is rows
  512·t … 512·t + 511, the weight and the bias row are read whole, and the scratch holds the weight binarised at the
  first point. Row r lies in the block of point r / 512, so the 32 blocks cover the array.
-/
import proofs.«159027_j9852654977033_1_alg».proof.Proof.KiFrame0
import proofs.«159027_j9852654977033_1_alg».proof.Proof.KiPayloads
import Idealize.ShloMosaic.Lib.ValueIdx
import Idealize.ShloMosaic.Lib.Pipeline.Value
import Idealize.ShloMosaic.Lib.ValueLayout

set_option maxRecDepth 16384

noncomputable section

open scoped BigOperators

namespace Cert.KernelIdeal.R0W

open Cert.KernelIdeal Cert.KernelIdeal.Gen Cert.KernelIdeal.R0 Cert.KernelIdeal.R0V
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The three arrays the region reads, as it finds them. -/
abbrev xArr (c : Dev nD) : S16384x2048.Idx → EReal := V c (Pipeline.arrRef spec0 0)
abbrev wArr (c : Dev nD) : S1024x2048.Idx → EReal := V c (Pipeline.arrRef spec0 1)
abbrev bRow (c : Dev nD) : S1x1024.Idx → EReal := V c (Pipeline.arrRef spec0 2)

/-- The linear layer's entry (r, o) over a bias given as a [1,1024] row. -/
def linRow (x : S16384x2048.Idx → EReal) (w : S1024x2048.Idx → EReal) (brow : S1x1024.Idx → EReal) (r : Fin 16384) (o : Fin 1024) : EReal :=
  (∑ k : Fin 2048, x (ix2 r k) * Cert.Spec.sgn w o k) + brow (ix2 (0 : Fin 1) o)

/-- The block indices, decided over the 32 points: the rows of x and the first output move with the point, everything
    else stays at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Entry `y` of block `t` of the rows of x is the array's entry (512·t + y 0, y 1). -/
theorem xb_apply (c : Dev nD) (t : Fin cfg0.N) (y : S512x2048.Idx) (k : S16384x2048.Idx)
    (hk0 : (k 0).val = t.val * 512 + (y 0).val) (hk1 : (k 1).val = (y 1).val) :
    (xb V c t : Vec Ideal S512x2048 .f32) y = xArr V c k := by
  obtain ⟨e00, e01, -⟩ := idx_facts0 t
  unfold xb iblk0 xArr
  rw [View.read_apply]
  refine congrArg (V c (Pipeline.arrRef spec0 0) : S16384x2048.Idx → EReal) ?_
  funext a
  apply Fin.ext
  match a with
  | ⟨0, _⟩ => show win0_0.index t (0 : Fin 2) * 512 + 1 * (y 0).val = (k 0).val; rw [e00, hk0]; omega
  | ⟨1, _⟩ => show win0_0.index t (1 : Fin 2) * 2048 + 1 * (y 1).val = (k 1).val; rw [e01, hk1]; omega

/-- The weight's one block, at any point, is the weight. -/
theorem wblk_apply (c : Dev nD) (t : Fin cfg0.N) (y : S1024x2048.Idx) :
    (wblk V c t : Vec Ideal S1024x2048 .f32) y = wArr V c y := by
  obtain ⟨-, -, e10, e11, -⟩ := idx_facts0 t
  unfold wblk iblk0 wArr
  rw [View.read_apply]
  refine congrArg (V c (Pipeline.arrRef spec0 1) : S1024x2048.Idx → EReal) ?_
  funext a
  apply Fin.ext
  match a with
  | ⟨0, _⟩ => show win0_1.index t (0 : Fin 2) * 1024 + 1 * (y 0).val = (y 0).val; rw [e10]; omega
  | ⟨1, _⟩ => show win0_1.index t (1 : Fin 2) * 2048 + 1 * (y 1).val = (y 1).val; rw [e11]; omega

/-- The bias row's one block, at any point, is the row. -/
theorem bb_apply (c : Dev nD) (t : Fin cfg0.N) (y : S1x1024.Idx) :
    (bb V c t : Vec Ideal S1x1024 .f32) y = bRow V c y := by
  obtain ⟨-, -, -, -, e20, e21, -⟩ := idx_facts0 t
  unfold bb iblk0 bRow
  rw [View.read_apply]
  refine congrArg (V c (Pipeline.arrRef spec0 2) : S1x1024.Idx → EReal) ?_
  funext a
  apply Fin.ext
  match a with
  | ⟨0, _⟩ => show win0_2.index t (0 : Fin 2) * 1 + 1 * (y 0).val = (y 0).val; rw [e20]; omega
  | ⟨1, _⟩ => show win0_2.index t (1 : Fin 2) * 1024 + 1 * (y 1).val = (y 1).val; rw [e21]; omega

/-- The scratch's entry (o, k): the binarised weight. -/
theorem wb0_apply (c : Dev nD) (o : Fin 1024) (k : Fin 2048) : wb0 V c (ix2 o k) = Cert.Spec.sgn (wArr V c) o k := by
  unfold wb0
  rw [pay1_at]
  unfold Cert.Spec.sgn
  rw [wblk_apply]

/-- Entry (p, q) of the block written at point `t` is entry (512·t + p, q) of the linear layer. -/
theorem yAt0_apply (c : Dev nD) (t : Fin cfg0.N) (p : Fin 512) (q : Fin 1024) (r : Fin 16384) (hr : r.val = t.val * 512 + p.val) :
    yAt0 V c t (ix2 p q) = linRow (xArr V c) (wArr V c) (bRow V c) r q := by
  unfold yAt0
  rw [pay4_at]
  unfold linRow
  refine congrArg₂ (· + ·) (Finset.sum_congr rfl fun k _ => ?_) (bb_apply V c t _)
  rw [xb_apply V c t (ix2 p k) (ix2 r k) hr rfl, wb0_apply]

/-! ## The first output array -/

/-- The first output as one function of the arrays the region finds. -/
def linArr (c : Dev nD) : S16384x1024.Idx → EReal := fun i => linRow (xArr V c) (wArr V c) (bRow V c) (i 0) (i 1)

/-- What point `t` writes back is block `t` of `linArr`. -/
theorem flushed_eq3 (c : Dev nD) (t : Fin cfg0.N) :
    (dat0 V c).flushed 3 t = ((cfg0.win 3).blk t).view.read (Elt Ideal) (linArr V c) := by
  show (cfg0.win 3).cut (grid0.coords t) ((dat0 V c).after 3 t) = _
  rw [after0_3]
  obtain ⟨-, -, -, -, -, -, e30, e31, -⟩ := idx_facts0 t
  funext j
  rw [View.read_apply]
  obtain ⟨p, q, rfl⟩ : ∃ (p : Fin 512) (q : Fin 1024), j = ix2 p q := ⟨j 0, j 1, eq_ix2 j⟩
  have hk0 : ((((cfg0.win 3).blk t).view.emb (ix2 p q) : S16384x1024.Idx) 0).val = t.val * 512 + p.val := by
    show win0_3.index t (0 : Fin 2) * 512 + 1 * p.val = _; rw [e30]; omega
  have hk1 : ((((cfg0.win 3).blk t).view.emb (ix2 p q) : S16384x1024.Idx) 1).val = q.val := by
    show win0_3.index t (1 : Fin 2) * 1024 + 1 * q.val = _; rw [e31]; omega
  refine (yAt0_apply V c t p q ((((cfg0.win 3).blk t).view.emb (ix2 p q) : S16384x1024.Idx) 0) hk0).trans ?_
  unfold linArr
  refine congrArg (linRow (xArr V c) (wArr V c) (bRow V c) _) ?_
  exact Fin.ext hk1.symm

theorem mem_blk3 (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_call0_v1_0).slice (win0_3.rect t)).set ↔ _
  rw [View.set_slice_whole, Rect.mem_set_unit]
  exact Iff.rfl

/-- Row `r` is in the block of point `r / 512`: the 32 blocks cover the array. -/
theorem cover3 (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, e30, e31, -⟩ := idx_facts0 t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; rw [e30, ht]; omega
  | ⟨1, _⟩ => show win0_3.index t (1 : Fin 2) * 1024 ≤ (i 1).val ∧ (i 1).val < win0_3.index t (1 : Fin 2) * 1024 + 1024; rw [e31]; omega

/-- The first output array after the region. -/
theorem final3 (c : Dev nD) : (dat0 V c).arrAt 3 cfg0.N = linArr V c :=
  (dat0 V c).arrAt_eq_of_cover 3 (linArr V c) (fun t _ => flushed_eq3 V c t) (cover3)

end Cert.KernelIdeal.R0W

end
-- ==== Proof.LibTileSums.lean ====
/-
  Finite sums regrouped by blocks, in any commutative additive monoid (no finiteness of the summands is needed, so the
  lemmas apply to extended reals).

    * `sum_blocks`: a sum over a * b consecutive positions is the sum over a blocks of the sum over the b positions inside
      each block (position b * I + r is position r of block I).
    * `sum_tiles`: the same on both axes of a double sum, with the two middle sums exchanged: a sum over all pairs (i, j) is
      the sum over tile pairs (I, J) of the sum over the pairs inside tile (I, J). This is how a sum accumulated tile by
      tile over a grid meets one whole-array sum.
    * `sum_idx1`: a sum over the index set of a rank-1 array is the sum over its one coordinate.
  The summand is a function of natural-number positions, so that tile arithmetic on positions is plain arithmetic.
-/
import Idealize.ShloMosaic.Lib.ValueIdx

noncomputable section

namespace Cert.LibTileSums

open Idealize.ShloMosaic Idealize.ShloMosaic.ValueIdx

/-- A sum over a * b consecutive positions, block by block. -/
theorem sum_blocks {M : Type*} [AddCommMonoid M] (a b : ℕ) (g : ℕ → M) :
    ∑ i : Fin (a * b), g i.val = ∑ I : Fin a, ∑ r : Fin b, g (b * I.val + r.val) := by
  rw [← finProdFinEquiv.sum_comp, Fintype.sum_prod_type]
  refine Finset.sum_congr rfl fun I _ => Finset.sum_congr rfl fun r _ => ?_
  show g (r.val + b * I.val) = _
  rw [Nat.add_comm]

/-- A double sum over [a * b] x [a' * b'], tile pair by tile pair. -/
theorem sum_tiles {M : Type*} [AddCommMonoid M] (a b a' b' : ℕ) (g : ℕ → ℕ → M) :
    ∑ i : Fin (a * b), ∑ j : Fin (a' * b'), g i.val j.val
      = ∑ I : Fin a, ∑ J : Fin a', ∑ r : Fin b, ∑ r' : Fin b', g (b * I.val + r.val) (b' * J.val + r'.val) := by
  rw [sum_blocks a b (fun i => ∑ j : Fin (a' * b'), g i j.val)]
  refine Finset.sum_congr rfl fun I _ => ?_
  rw [Finset.sum_comm]
  have : ∀ r : Fin b, ∑ j : Fin (a' * b'), g (b * I.val + r.val) j.val
      = ∑ J : Fin a', ∑ r' : Fin b', g (b * I.val + r.val) (b' * J.val + r'.val) :=
    fun r => sum_blocks a' b' (fun j => g (b * I.val + r.val) j)
  rw [Finset.sum_comm]
  simp only [this]
  rw [Finset.sum_comm]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibTileSums

end
-- ==== Proof.LibRealEntries.lean ====
/-
  When an entry of an array of extended reals is a real number — each fact stated once, over the library alone.

    * `sum_real`: a finite sum of reals is a real.
    * `ofBits_inf`: the 32-bit word 0x7F800000 is +∞.
    * `ofBool_eq_one`: the one-bit word made from a truth value is 1 only when the value is true.
    * `real_of_abs_lt_top`: an extended real x with max x (-x) < +∞ is a real.
    * `real_of_cmp`: the same, from the comparison bit "max x (-x) < the word of +∞" being 1 — the form in which a test
      "every entry is finite" states it.
-/
import Idealize.ShloMosaic.PureOps.Ideal

noncomputable section

namespace Cert.LibRealEntries

open Idealize.ShloMosaic

/-- A finite sum of reals is a real: the sum of the reals, by induction on the index set. -/
theorem sum_real {ι : Type} (s : Finset ι) (f : ι → EReal) (hf : ∀ k, ∃ r : ℝ, f k = (r : EReal)) :
    ∃ r : ℝ, ∑ k ∈ s, f k = (r : EReal) := by
  classical
  refine Finset.induction_on s ⟨0, by simp⟩ ?_
  intro k t hk ih
  obtain ⟨r, hr⟩ := ih
  obtain ⟨q, hq⟩ := hf k
  exact ⟨q + r, by rw [Finset.sum_insert hk, hr, hq, EReal.coe_add]⟩

/-- The word 0x7F800000 is +∞. -/
theorem ofBits_inf : Ideal.ofBits .f32 0x7F800000#32 = ⊤ := by simp [Ideal.ofBits, Ideal.ieee]

/-- A one-bit word made from a truth value is 1 only when the value is true. -/
theorem ofBool_eq_one (b : Bool) (h : BitVec.ofBool b = 1#1) : b = true := by
  cases b
  · exact absurd h (by decide)
  · rfl

/-- An extended real whose absolute value max x (-x) is below +∞ is a real: at -∞ and at +∞ that maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The same, from the comparison bit |x| < (the word of +∞) being 1. -/
theorem real_of_cmp (x : EReal)
    (hx : Ideal.cmp .olt (max x (-x)) (Ideal.ofBits .f32 0x7F800000#32) = 1#1) : ∃ r : ℝ, x = (r : EReal) := by
  have hlt : max x (-x) < Ideal.ofBits .f32 0x7F800000#32 := of_decide_eq_true (ofBool_eq_one _ hx)
  rw [ofBits_inf] at hlt
  exact real_of_abs_lt_top x hlt

end Cert.LibRealEntries

end
-- ==== Proof.KiSums.lean ====
/-
  A column's sum over 16384 rows, gathered 512 rows at a time.

  The rows are visited in 32 consecutive blocks of 512.  The running sum starts at 0, and block n adds the sum of its
  512 rows; after the last block the running sum is the sum over all 16384 rows.  Positions are natural numbers (row
  512·n + p is row p of block n), and a position past the last row counts as 0, so that the running sum is defined at
  every n.  No finiteness is needed: this is regrouping in a commutative monoid.  Separately: a finite sum of reals,
  and of squares of reals, is a real.
-/
import proofs.«159027_j9852654977033_1_alg».proof.Proof.LibTileSums
import proofs.«159027_j9852654977033_1_alg».proof.Proof.LibRealEntries
import Idealize.ShloMosaic.PureOps.Ideal

noncomputable section

open scoped BigOperators

namespace Cert.KernelIdeal.Sums

/-- The column as a function of the row's position; 0 past the last row. -/
def ext (f : Fin 16384 → EReal) (r : ℕ) : EReal := if h : r < 16384 then f ⟨r, h⟩ else 0

theorem ext_of_lt (f : Fin 16384 → EReal) (r : ℕ) (h : r < 16384) : ext f r = f ⟨r, h⟩ := dif_pos h

theorem ext_val (f : Fin 16384 → EReal) (i : Fin 16384) : ext f i.val = f i := dif_pos i.isLt

/-- Squaring commutes with the extension by 0. -/
theorem ext_mul (f : Fin 16384 → EReal) (r : ℕ) : ext (fun i => f i * f i) r = ext f r * ext f r := by
  unfold ext
  split
  · rfl
  · rw [mul_zero]

/-- The running sum: 0 plus block 0, then one more block at each step. -/
def accN (f : Fin 16384 → EReal) : ℕ → EReal
  | 0 => 0 + ∑ p : Fin 512, ext f (512 * 0 + p.val)
  | n + 1 => accN f n + ∑ p : Fin 512, ext f (512 * (n + 1) + p.val)

theorem accN_zero (f : Fin 16384 → EReal) : accN f 0 = 0 + ∑ p : Fin 512, ext f (512 * 0 + p.val) := rfl

theorem accN_succ (f : Fin 16384 → EReal) (n : ℕ) :
    accN f (n + 1) = accN f n + ∑ p : Fin 512, ext f (512 * (n + 1) + p.val) := rfl

/-- After block n the running sum is the sum over the first n + 1 blocks. -/
theorem accN_eq (f : Fin 16384 → EReal) (n : ℕ) :
    accN f n = ∑ t : Fin (n + 1), ∑ p : Fin 512, ext f (512 * t.val + p.val) := by
  induction n with
  | zero => rw [accN_zero, zero_add, Fin.sum_univ_one]; rfl
  | succ n ih =>
    rw [accN_succ, ih]
    exact (Fin.sum_univ_castSucc (fun t : Fin (n + 1 + 1) => ∑ p : Fin 512, ext f (512 * t.val + p.val))).symm

/-- After the last of the 32 blocks the running sum is the whole column's sum. -/
theorem accN_last (f : Fin 16384 → EReal) : accN f 31 = ∑ r : Fin 16384, f r := by
  rw [accN_eq]
  refine (Cert.LibTileSums.sum_blocks 32 512 (ext f)).symm.trans ?_
  show ∑ i : Fin 16384, ext f i.val = ∑ r : Fin 16384, f r
  exact Finset.sum_congr rfl fun i _ => ext_val f i

/-- A column of reals has a real sum. -/
theorem sum_real (f : Fin 16384 → EReal) (hf : ∀ r, ∃ t : ℝ, f r = (t : EReal)) : ∃ t : ℝ, ∑ r, f r = (t : EReal) :=
  Cert.LibRealEntries.sum_real Finset.univ f hf

/-- A column of reals has a real sum of squares. -/
theorem sumsq_real (f : Fin 16384 → EReal) (hf : ∀ r, ∃ t : ℝ, f r = (t : EReal)) :
    ∃ t : ℝ, ∑ r, f r * f r = (t : EReal) :=
  Cert.LibRealEntries.sum_real Finset.univ (fun r => f r * f r) (fun r => by
    obtain ⟨a, ha⟩ := hf r
    exact ⟨a * a, by rw [ha, EReal.coe_mul]⟩)

end Cert.KernelIdeal.Sums

end
-- ==== Proof.KiValue0S.lean ====
/-
  The first pallas_call's two running sums after the grid. After point n the sum's row holds, in column q, the sum of
  the linear layer's entries (r, q) over the rows r of the first n + 1 blocks: the first point adds its block's column
  sums onto the zeros it has just stored, every later point adds its block's onto what the point before left. The
  sums' windows are written back once, at the last point, where the 32 blocks are all 16384 rows; a sum over
  32 · 512 consecutive rows block by block is the sum over the rows. Likewise for the squares.
-/
import proofs.«159027_j9852654977033_1_alg».proof.Proof.KiValue0
import proofs.«159027_j9852654977033_1_alg».proof.Proof.KiSums

set_option maxRecDepth 16384

noncomputable section

open scoped BigOperators

namespace Cert.KernelIdeal.R0W

open Cert.KernelIdeal Cert.KernelIdeal.Gen Cert.KernelIdeal.R0 Cert.KernelIdeal.R0V
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Column q of the linear layer, row by row. -/
abbrev colF (c : Dev nD) (q : Fin 1024) : Fin 16384 → EReal := fun r => linRow (xArr V c) (wArr V c) (bRow V c) r q

/-- The column sums of the block written at point `t` are the sums over rows 512·t … 512·t + 511. -/
theorem blocksum_eq (c : Dev nD) (t : Fin cfg0.N) (q : Fin 1024) :
    ∑ p : Fin 512, k0_pay4 (F := Ideal) (xb V c t) (wb0 V c) (bb V c t) (ix2 p q) = ∑ p : Fin 512, Sums.ext (colF V c q) (512 * t.val + p.val) := by
  have hN : t.val < 32 := lt_of_lt_of_eq t.isLt N_0
  refine Finset.sum_congr rfl fun p _ => ?_
  have hr : 512 * t.val + p.val < 16384 := by have := p.isLt; omega
  rw [Sums.ext_of_lt _ _ hr]
  exact yAt0_apply V c t p q ⟨512 * t.val + p.val, hr⟩ (by show 512 * t.val + p.val = t.val * 512 + p.val; omega)

theorem blocksumsq_eq (c : Dev nD) (t : Fin cfg0.N) (q : Fin 1024) :
    ∑ p : Fin 512, k0_pay4 (F := Ideal) (xb V c t) (wb0 V c) (bb V c t) (ix2 p q) * k0_pay4 (F := Ideal) (xb V c t) (wb0 V c) (bb V c t) (ix2 p q)
      = ∑ p : Fin 512, Sums.ext (fun i => colF V c q i * colF V c q i) (512 * t.val + p.val) := by
  have hN : t.val < 32 := lt_of_lt_of_eq t.isLt N_0
  refine Finset.sum_congr rfl fun p _ => ?_
  have hr : 512 * t.val + p.val < 16384 := by have := p.isLt; omega
  rw [Sums.ext_of_lt _ _ hr]
  have h := yAt0_apply V c t p q ⟨512 * t.val + p.val, hr⟩ (by show 512 * t.val + p.val = t.val * 512 + p.val; omega)
  exact congrArg₂ (· * ·) h h

/-- THE RUNNING SUM after position `n`, column q. -/
theorem acc1_eq (c : Dev nD) (q : Fin 1024) : ∀ (n : ℕ) (hn : n < cfg0.N),
    (accAt0 V c n hn).1 (ix2 (0 : Fin 1) q) = Sums.accN (colF V c q) n
  | 0, hn => by
    show k0_pay5 (F := Ideal) (xb V c ⟨0, hn⟩) (wb0 V c) (bb V c ⟨0, hn⟩) (k0_pay2 (F := Ideal)) (ix2 (0 : Fin 1) q) = _
    rw [pay5_at, pay2_at, blocksum_eq V c ⟨0, hn⟩ q]
    rfl
  | n + 1, hn => by
    show k0_pay5 (F := Ideal) (xb V c ⟨n + 1, hn⟩) (wb0 V c) (bb V c ⟨n + 1, hn⟩) (accAt0 V c n (Nat.lt_of_succ_lt hn)).1 (ix2 (0 : Fin 1) q) = _
    rw [pay5_at, acc1_eq c q n (Nat.lt_of_succ_lt hn), blocksum_eq V c ⟨n + 1, hn⟩ q]
    rfl

/-- THE RUNNING SUM OF SQUARES after position `n`, column q. -/
theorem acc2_eq (c : Dev nD) (q : Fin 1024) : ∀ (n : ℕ) (hn : n < cfg0.N),
    (accAt0 V c n hn).2 (ix2 (0 : Fin 1) q) = Sums.accN (fun i => colF V c q i * colF V c q i) n
  | 0, hn => by
    show k0_pay6 (F := Ideal) (xb V c ⟨0, hn⟩) (wb0 V c) (bb V c ⟨0, hn⟩) (k0_pay3 (F := Ideal)) (ix2 (0 : Fin 1) q) = _
    rw [pay6_at, pay3_at, blocksumsq_eq V c ⟨0, hn⟩ q]
    rfl
  | n + 1, hn => by
    show k0_pay6 (F := Ideal) (xb V c ⟨n + 1, hn⟩) (wb0 V c) (bb V c ⟨n + 1, hn⟩) (accAt0 V c n (Nat.lt_of_succ_lt hn)).2 (ix2 (0 : Fin 1) q) = _
    rw [pay6_at, acc2_eq c q n (Nat.lt_of_succ_lt hn), blocksumsq_eq V c ⟨n + 1, hn⟩ q]
    rfl

/-- The two sums' rows as functions of the arrays the region finds: column q's sum, and sum of squares, over all rows. -/
def sumArr (c : Dev nD) : S1x1024.Idx → EReal := fun i => ∑ r : Fin 16384, colF V c (i 1) r
def sumSqArr (c : Dev nD) : S1x1024.Idx → EReal := fun i => ∑ r : Fin 16384, colF V c (i 1) r * colF V c (i 1) r

theorem flushed_eq4 (c : Dev nD) (t : Fin cfg0.N) (hf : (cfg0.win 4).flush t = true) :
    (dat0 V c).flushed 4 t = ((cfg0.win 4).blk t).view.read (Elt Ideal) (sumArr V c) := by
  have hN : t.val < 32 := lt_of_lt_of_eq t.isLt N_0
  have h31 : t.val = 31 := by have h := (flush0_4 t).mp hf; omega
  show (cfg0.win 4).cut (grid0.coords t) ((dat0 V c).after 4 t) = _
  rw [after0_4]
  obtain ⟨-, -, -, -, -, -, -, -, e40, e41, e50, e51⟩ := idx_facts0 t
  funext j
  rw [View.read_apply]
  obtain ⟨p, q, rfl⟩ : ∃ (p : Fin 1) (q : Fin 1024), j = ix2 p q := ⟨j 0, j 1, eq_ix2 j⟩
  obtain rfl : p = 0 := Fin.ext (by have := p.isLt; omega)
  have hk1 : ((((cfg0.win 4).blk t).view.emb (ix2 (0 : Fin 1) q) : S1x1024.Idx) 1).val = q.val := by
    show win0_4.index t (1 : Fin 2) * 1024 + 1 * q.val = _; rw [e41]; omega
  refine (acc1_eq V c q t.val t.isLt).trans ?_
  rw [h31, Sums.accN_last]
  have hq : ((((cfg0.win 4).blk t).view.emb (ix2 (0 : Fin 1) q) : S1x1024.Idx) 1) = q := Fin.ext hk1
  unfold sumArr
  rw [hq]
  exact (cast_eq _ _).symm

theorem mem_blk4 (t : Fin cfg0.N) (i : S1x1024.Idx) :
    i ∈ ((cfg0.win 4).blk t).view.set ↔ ∀ a : Fin 2, win0_4.index t a * S1x1024.size a ≤ (i a).val ∧ (i a).val < win0_4.index t a * S1x1024.size a + S1x1024.size a := by
  show i ∈ ((View.whole main_call0_v1_1).slice (win0_4.rect t)).set ↔ _
  rw [View.set_slice_whole, Rect.mem_set_unit]
  exact Iff.rfl

/-- The last point's block is the whole row. -/
theorem cover4 (i : S1x1024.Idx) :
    ∃ t : Fin cfg0.N, (cfg0.win 4).flush t = true ∧ i ∈ ((cfg0.win 4).blk t).view.set := by
  have hi0 : (i 0).val < 1 := (i 0).isLt
  have hi1 : (i 1).val < 1024 := (i 1).isLt
  have hN : cfg0.N = 32 := N_0
  obtain ⟨t, ht⟩ : ∃ t : Fin cfg0.N, t.val = 31 := ⟨⟨31, by rw [hN]; omega⟩, rfl⟩
  obtain ⟨-, -, -, -, -, -, -, -, e40, e41, e50, e51⟩ := idx_facts0 t
  refine ⟨t, (flush0_4 t).mpr (by rw [ht]), ?_⟩
  rw [mem_blk4]
  intro a
  match a with
  | ⟨0, _⟩ => show win0_4.index t (0 : Fin 2) * 1 ≤ (i 0).val ∧ (i 0).val < win0_4.index t (0 : Fin 2) * 1 + 1; rw [e40]; omega
  | ⟨1, _⟩ => show win0_4.index t (1 : Fin 2) * 1024 ≤ (i 1).val ∧ (i 1).val < win0_4.index t (1 : Fin 2) * 1024 + 1024; rw [e41]; omega

theorem final4 (c : Dev nD) : (dat0 V c).arrAt 4 cfg0.N = sumArr V c :=
  (dat0 V c).arrAt_eq_of_cover 4 (sumArr V c) (fun t hf => flushed_eq4 V c t hf) (cover4)

theorem flushed_eq5 (c : Dev nD) (t : Fin cfg0.N) (hf : (cfg0.win 5).flush t = true) :
    (dat0 V c).flushed 5 t = ((cfg0.win 5).blk t).view.read (Elt Ideal) (sumSqArr V c) := by
  have hN : t.val < 32 := lt_of_lt_of_eq t.isLt N_0
  have h31 : t.val = 31 := by have h := (flush0_5 t).mp hf; omega
  show (cfg0.win 5).cut (grid0.coords t) ((dat0 V c).after 5 t) = _
  rw [after0_5]
  obtain ⟨-, -, -, -, -, -, -, -, e40, e41, e50, e51⟩ := idx_facts0 t
  funext j
  rw [View.read_apply]
  obtain ⟨p, q, rfl⟩ : ∃ (p : Fin 1) (q : Fin 1024), j = ix2 p q := ⟨j 0, j 1, eq_ix2 j⟩
  obtain rfl : p = 0 := Fin.ext (by have := p.isLt; omega)
  have hk1 : ((((cfg0.win 5).blk t).view.emb (ix2 (0 : Fin 1) q) : S1x1024.Idx) 1).val = q.val := by
    show win0_5.index t (1 : Fin 2) * 1024 + 1 * q.val = _; rw [e51]; omega
  refine (acc2_eq V c q t.val t.isLt).trans ?_
  rw [h31, Sums.accN_last]
  have hq : ((((cfg0.win 5).blk t).view.emb (ix2 (0 : Fin 1) q) : S1x1024.Idx) 1) = q := Fin.ext hk1
  unfold sumSqArr
  rw [hq]
  exact (cast_eq _ _).symm

theorem mem_blk5 (t : Fin cfg0.N) (i : S1x1024.Idx) :
    i ∈ ((cfg0.win 5).blk t).view.set ↔ ∀ a : Fin 2, win0_5.index t a * S1x1024.size a ≤ (i a).val ∧ (i a).val < win0_5.index t a * S1x1024.size a + S1x1024.size a := by
  show i ∈ ((View.whole main_call0_v1_2).slice (win0_5.rect t)).set ↔ _
  rw [View.set_slice_whole, Rect.mem_set_unit]
  exact Iff.rfl

/-- The last point's block is the whole row. -/
theorem cover5 (i : S1x1024.Idx) :
    ∃ t : Fin cfg0.N, (cfg0.win 5).flush t = true ∧ i ∈ ((cfg0.win 5).blk t).view.set := by
  have hi0 : (i 0).val < 1 := (i 0).isLt
  have hi1 : (i 1).val < 1024 := (i 1).isLt
  have hN : cfg0.N = 32 := N_0
  obtain ⟨t, ht⟩ : ∃ t : Fin cfg0.N, t.val = 31 := ⟨⟨31, by rw [hN]; omega⟩, rfl⟩
  obtain ⟨-, -, -, -, -, -, -, -, e40, e41, e50, e51⟩ := idx_facts0 t
  refine ⟨t, (flush0_5 t).mpr (by rw [ht]), ?_⟩
  rw [mem_blk5]
  intro a
  match a with
  | ⟨0, _⟩ => show win0_5.index t (0 : Fin 2) * 1 ≤ (i 0).val ∧ (i 0).val < win0_5.index t (0 : Fin 2) * 1 + 1; rw [e50]; omega
  | ⟨1, _⟩ => show win0_5.index t (1 : Fin 2) * 1024 ≤ (i 1).val ∧ (i 1).val < win0_5.index t (1 : Fin 2) * 1024 + 1024; rw [e51]; omega

theorem final5 (c : Dev nD) : (dat0 V c).arrAt 5 cfg0.N = sumSqArr V c :=
  (dat0 V c).arrAt_eq_of_cover 5 (sumSqArr V c) (fun t hf => flushed_eq5 V c t hf) (cover5)

end Cert.KernelIdeal.R0W

end
-- ==== Proof.KiValue1.lean ====
import proofs.«159027_j9852654977033_1_alg».proof.Proof.KiRegion1
import Idealize.ShloMosaic.Lib.ValueIdx
import Idealize.ShloMosaic.Lib.Pipeline.Value
import Idealize.ShloMosaic.Lib.ValueLayout

/-!
# The normalisation kernel's result array, index by index

After its 16 points the second kernel has written every block of 1024 rows of the [16384,1024] result. Entry
`(r, o)` of the result is `((x(r,o) − a(0,o)) · s(0,o)) · g(0,o) + b(0,o)`: `x` the [16384,1024] input array and
`a`, `s`, `g`, `b` the four [1,1024] rows, as the region finds them.

The steps: the body's stored value at an entry `(p, q)` of a block (the rows broadcast down the block read their
entry `(0, q)`); each input block as a part of its array (entry `(p, q)` of block `t` of the big array is entry
`(1024·t + p, q)` of the array; a row's one block is the row); so what point `t` writes back is block `t` of one
function of the arrays; row `r` lies in the block of point `r / 1024`, so the blocks cover the array.
-/

set_option maxRecDepth 16384

noncomputable section

namespace Cert.KernelIdeal.R1V

open Cert.KernelIdeal Cert.KernelIdeal.Gen Cert.KernelIdeal.R1
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## The stored value at an entry of the block -/

/-- Entry `(p, q)` of the stored block: the block's entry less the first row's entry `(0, q)`, times the second
    row's, times the third's, plus the fourth's. -/
theorem pay_ix2 (x0 : Vec Ideal S1024x1024 .f32) (x1 x2 x3 x4 : Vec Ideal S1x1024 .f32) (p q : Fin 1024) :
    k1_pay1 x0 x1 x2 x3 x4 (ix2 p q)
      = (x0 (ix2 p q) - x1 (ix2 (0 : Fin 1) q)) * x2 (ix2 (0 : Fin 1) q) * x3 (ix2 (0 : Fin 1) q) + x4 (ix2 (0 : Fin 1) q) := by
  unfold k1_pay1
  simp only [addf_apply, mulf_apply, subf_apply, shapeCast_self, broadcastTo_1b_ab_apply]

/-- The same at any index `j` of the block, the rows read at any index `y` of theirs in `j`'s column. -/
theorem pay_apply (x0 : Vec Ideal S1024x1024 .f32) (x1 x2 x3 x4 : Vec Ideal S1x1024 .f32) (j : S1024x1024.Idx)
    (y : S1x1024.Idx) (hy : (y 1).val = (j 1).val) :
    k1_pay1 x0 x1 x2 x3 x4 j = (x0 j - x1 y) * x2 y * x3 y + x4 y := by
  obtain ⟨p, q, rfl⟩ : ∃ (p q : Fin 1024), j = ix2 p q := ⟨j 0, j 1, eq_ix2 j⟩
  obtain rfl : y = ix2 (0 : Fin 1) q := by
    funext a
    apply Fin.ext
    match a with
    | ⟨0, _⟩ => have h : (y 0).val < 1 := (y 0).isLt; show (y 0).val = 0; omega
    | ⟨1, _⟩ => exact hy
  exact pay_ix2 x0 x1 x2 x3 x4 p q

/-! ## The blocks as parts of their arrays -/

/-- The five arrays as the region finds them: the [16384,1024] input and the four [1,1024] rows. -/
abbrev xArr (c : Dev nD) : S16384x1024.Idx → EReal := V c (Pipeline.arrRef spec1 0)
abbrev row1 (c : Dev nD) : S1x1024.Idx → EReal := V c (Pipeline.arrRef spec1 1)
abbrev row2 (c : Dev nD) : S1x1024.Idx → EReal := V c (Pipeline.arrRef spec1 2)
abbrev row3 (c : Dev nD) : S1x1024.Idx → EReal := V c (Pipeline.arrRef spec1 3)
abbrev row4 (c : Dev nD) : S1x1024.Idx → EReal := V c (Pipeline.arrRef spec1 4)

/-- The block indices, decided over the 16 points: the big input's and the output's block row is the point's
    number and their block column 0; the four rows' block index is (0, 0) throughout. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Entry `y` of block `t` of the [16384,1024] input is the array's entry `(1024·t + y 0, y 1)`. -/
theorem blk0_apply (c : Dev nD) (t : Fin cfg1.N) (y : S1024x1024.Idx) (k : S16384x1024.Idx)
    (hk0 : (k 0).val = t.val * 1024 + (y 0).val) (hk1 : (k 1).val = (y 1).val) :
    (iblk1 V c 0 t : Vec Ideal S1024x1024 .f32) y = xArr V c k := by
  obtain ⟨e00, e01, -⟩ := idx_facts t
  unfold iblk1 xArr
  rw [View.read_apply]
  refine congrArg (V c (Pipeline.arrRef spec1 0) : S16384x1024.Idx → EReal) ?_
  funext a
  apply Fin.ext
  match a with
  | ⟨0, _⟩ => show win1_0.index t (0 : Fin 2) * 1024 + 1 * (y 0).val = (k 0).val; rw [e00, hk0]; omega
  | ⟨1, _⟩ => show win1_0.index t (1 : Fin 2) * 1024 + 1 * (y 1).val = (k 1).val; rw [e01, hk1]; omega

/-- A row's one block, at any point, is the row. -/
theorem row1_apply (c : Dev nD) (t : Fin cfg1.N) (y : S1x1024.Idx) :
    (iblk1 V c 1 t : Vec Ideal S1x1024 .f32) y = row1 V c y := by
  obtain ⟨-, -, -, -, e10, e11, e20, e21, e30, e31, e40, e41⟩ := idx_facts t
  unfold iblk1 row1
  rw [View.read_apply]
  refine congrArg (V c (Pipeline.arrRef spec1 1) : S1x1024.Idx → EReal) ?_
  funext a
  apply Fin.ext
  match a with
  | ⟨0, _⟩ => show win1_1.index t (0 : Fin 2) * 1 + 1 * (y 0).val = (y 0).val; rw [e10]; omega
  | ⟨1, _⟩ => show win1_1.index t (1 : Fin 2) * 1024 + 1 * (y 1).val = (y 1).val; rw [e11]; omega
theorem row2_apply (c : Dev nD) (t : Fin cfg1.N) (y : S1x1024.Idx) :
    (iblk1 V c 2 t : Vec Ideal S1x1024 .f32) y = row2 V c y := by
  obtain ⟨-, -, -, -, e10, e11, e20, e21, e30, e31, e40, e41⟩ := idx_facts t
  unfold iblk1 row2
  rw [View.read_apply]
  refine congrArg (V c (Pipeline.arrRef spec1 2) : S1x1024.Idx → EReal) ?_
  funext a
  apply Fin.ext
  match a with
  | ⟨0, _⟩ => show win1_2.index t (0 : Fin 2) * 1 + 1 * (y 0).val = (y 0).val; rw [e20]; omega
  | ⟨1, _⟩ => show win1_2.index t (1 : Fin 2) * 1024 + 1 * (y 1).val = (y 1).val; rw [e21]; omega
theorem row3_apply (c : Dev nD) (t : Fin cfg1.N) (y : S1x1024.Idx) :
    (iblk1 V c 3 t : Vec Ideal S1x1024 .f32) y = row3 V c y := by
  obtain ⟨-, -, -, -, e10, e11, e20, e21, e30, e31, e40, e41⟩ := idx_facts t
  unfold iblk1 row3
  rw [View.read_apply]
  refine congrArg (V c (Pipeline.arrRef spec1 3) : S1x1024.Idx → EReal) ?_
  funext a
  apply Fin.ext
  match a with
  | ⟨0, _⟩ => show win1_3.index t (0 : Fin 2) * 1 + 1 * (y 0).val = (y 0).val; rw [e30]; omega
  | ⟨1, _⟩ => show win1_3.index t (1 : Fin 2) * 1024 + 1 * (y 1).val = (y 1).val; rw [e31]; omega
theorem row4_apply (c : Dev nD) (t : Fin cfg1.N) (y : S1x1024.Idx) :
    (iblk1 V c 4 t : Vec Ideal S1x1024 .f32) y = row4 V c y := by
  obtain ⟨-, -, -, -, e10, e11, e20, e21, e30, e31, e40, e41⟩ := idx_facts t
  unfold iblk1 row4
  rw [View.read_apply]
  refine congrArg (V c (Pipeline.arrRef spec1 4) : S1x1024.Idx → EReal) ?_
  funext a
  apply Fin.ext
  match a with
  | ⟨0, _⟩ => show win1_4.index t (0 : Fin 2) * 1 + 1 * (y 0).val = (y 0).val; rw [e40]; omega
  | ⟨1, _⟩ => show win1_4.index t (1 : Fin 2) * 1024 + 1 * (y 1).val = (y 1).val; rw [e41]; omega

/-! ## What a point writes back, and the whole array -/

/-- The result array as one function of the five arrays the region finds. -/
def normed (c : Dev nD) : S16384x1024.Idx → EReal := fun i =>
  (xArr V c i - row1 V c (ix2 (0 : Fin 1) (i 1))) * row2 V c (ix2 (0 : Fin 1) (i 1)) * row3 V c (ix2 (0 : Fin 1) (i 1))
    + row4 V c (ix2 (0 : Fin 1) (i 1))

/-- What point `t` writes back is block `t` of `normed`. -/
theorem flushed_eq (c : Dev nD) (t : Fin cfg1.N) :
    (dat1 V c).flushed 5 t = ((cfg1.win 5).blk t).view.read (Elt Ideal) (normed V c) := by
  show (cfg1.win 5).cut (grid1.coords t) ((dat1 V c).after 5 t) = _
  rw [after1_5]
  unfold out1_5
  rw [View.canon_unit_zero hz]
  simp only [View.ld_unit_zero (S := S1024x1024) hz, View.ld_unit_zero (S := S1x1024) hz]
  obtain ⟨-, -, e50, e51, -⟩ := idx_facts t
  funext j
  rw [View.read_apply]
  have hk0 : ((((cfg1.win 5).blk t).view.emb j : S16384x1024.Idx) 0).val = t.val * 1024 + (j 0).val := by
    show win1_5.index t (0 : Fin 2) * 1024 + 1 * (j 0).val = _; rw [e50]; omega
  have hk1 : ((((cfg1.win 5).blk t).view.emb j : S16384x1024.Idx) 1).val = (j 1).val := by
    show win1_5.index t (1 : Fin 2) * 1024 + 1 * (j 1).val = _; rw [e51]; omega
  refine (pay_apply (iblk1 V c 0 t) (iblk1 V c 1 t) (iblk1 V c 2 t) (iblk1 V c 3 t) (iblk1 V c 4 t) j
    (ix2 (0 : Fin 1) ((((cfg1.win 5).blk t).view.emb j : S16384x1024.Idx) 1)) hk1).trans ?_
  rw [row1_apply, row2_apply, row3_apply, row4_apply,
    blk0_apply V c t j (((cfg1.win 5).blk t).view.emb j) hk0 hk1]
  rfl

/-- An index of the array is in point `t`'s block iff each coordinate is in the block's range on its axis. -/
theorem mem_blk (t : Fin cfg1.N) (i : S16384x1024.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v0).slice (win1_5.rect t)).set ↔ _
  rw [View.set_slice_whole, Rect.mem_set_unit]
  exact Iff.rfl

/-- Row `r` is in the block of point `r / 1024`: the 16 blocks cover the array. -/
theorem cover (i : S16384x1024.Idx) :
    ∃ t : Fin cfg1.N, (cfg1.win 5).flush t = true ∧ i ∈ ((cfg1.win 5).blk t).view.set := by
  have hi0 : (i 0).val < 16384 := (i 0).isLt
  have hi1 : (i 1).val < 1024 := (i 1).isLt
  have hN : cfg1.N = 16 := N_1
  obtain ⟨t, ht⟩ : ∃ t : Fin cfg1.N, t.val = (i 0).val / 1024 := ⟨⟨(i 0).val / 1024, by rw [hN]; omega⟩, rfl⟩
  obtain ⟨-, -, e50, e51, -⟩ := idx_facts t
  refine ⟨t, flush1_5 t, ?_⟩
  rw [mem_blk]
  intro a
  match a with
  | ⟨0, _⟩ => show win1_5.index t (0 : Fin 2) * 1024 ≤ (i 0).val ∧ (i 0).val < win1_5.index t (0 : Fin 2) * 1024 + 1024; rw [e50, ht]; omega
  | ⟨1, _⟩ => show win1_5.index t (1 : Fin 2) * 1024 ≤ (i 1).val ∧ (i 1).val < win1_5.index t (1 : Fin 2) * 1024 + 1024; rw [e51]; omega

/-- The result array after the region: `normed` of the arrays the region finds. -/
theorem final1_normed (c : Dev nD) : (dat1 V c).arrAt 5 cfg1.N = normed V c :=
  (dat1 V c).arrAt_eq_of_cover 5 (normed V c) (fun t _ => flushed_eq V c t) cover

/-- The same, spelt out index by index. -/
theorem final1 (c : Dev nD) : (dat1 V c).arrAt 5 cfg1.N = fun i : S16384x1024.Idx =>
    (xArr V c i - row1 V c (ix2 (0 : Fin 1) (i 1))) * row2 V c (ix2 (0 : Fin 1) (i 1)) * row3 V c (ix2 (0 : Fin 1) (i 1))
      + row4 V c (ix2 (0 : Fin 1) (i 1)) :=
  final1_normed V c

end Cert.KernelIdeal.R1V

end
-- ==== Proof.KiHost.lean ====
import proofs.«159027_j9852654977033_1_alg».proof.Proof.Gen.KernelIdeal.Launch
import proofs.«159027_j9852654977033_1_alg».proof.Proof.Gen.KernelIdeal.Regions
import proofs.«159027_j9852654977033_1_alg».proof.Proof.Spec
import Idealize.ShloMosaic.Lib.StableHlo.Run
import Idealize.ShloMosaic.Lib.ValueIdx
import Idealize.ShloMosaic.Lib.Pipeline.Value
import Idealize.ShloMosaic.Lib.ValueLayout

/-!
# What the host operations around the first kernel leave, read at an index

Before the first kernel the bias vector [1024] is reshaped to a row [1,1024]. Between the two kernels, from the
two rows the first kernel leaves — the column sums `s1` and the column sums of squares `s2` — the host computes,
column by column, the mean `s1 / 16384`, the mean of squares `s2 / 16384`, the variance as their difference
`s2 / 16384 − mean · mean`, and the inverse deviation `rsqrt (variance + ε)`; and it reshapes the scale and
shift vectors [1024] to rows [1,1024]. All of it holds from ANY contents `W` of the buffers the operations start
from; the [16384,1024] array the first kernel wrote is written by none of these operations.
-/

set_option maxRecDepth 16384

noncomputable section

namespace Cert.KernelIdeal.HostV

open Cert.KernelIdeal Cert.KernelIdeal.Gen
open Idealize.ShloMosaic Idealize.ShloMosaic.TcCoe Idealize.SL.Sem Idealize.ShloMosaic.StableHlo
open Idealize.ShloMosaic.ValueIdx

variable (W : Valuation τ sig (Elt Ideal))

/-! ## The buffers, at their literal shapes -/

/-- The three argument vectors [1024] the operations read: bias, scale, shift. -/
abbrev biasVec : S1024.Idx → EReal := W (Proc.devRef .tc main_arg2)
abbrev gammaVec : S1024.Idx → EReal := W (Proc.devRef .tc main_arg3)
abbrev betaVec : S1024.Idx → EReal := W (Proc.devRef .tc main_arg4)
/-- The two rows [1,1024] the first kernel leaves: the column sums and the column sums of squares. -/
abbrev sumRow : S1x1024.Idx → EReal := W (Proc.devRef .tc main_call0_v1_1)
abbrev sumSqRow : S1x1024.Idx → EReal := W (Proc.devRef .tc main_call0_v1_2)

/-- The bias row after the first stretch of host operations. -/
abbrev biasRow : S1x1024.Idx → EReal := StableHlo.after (hostOps0 (F := Ideal)) W (Proc.devRef .tc main_call0_v0)
/-- The four rows the second kernel reads, after the second stretch: mean, inverse deviation, scale, shift. -/
abbrev meanRow : S1x1024.Idx → EReal := StableHlo.after (hostOps1 (F := Ideal)) W (Proc.devRef .tc main_call0_v3)
abbrev invRow : S1x1024.Idx → EReal := StableHlo.after (hostOps1 (F := Ideal)) W (Proc.devRef .tc main_call0_v10)
abbrev gammaRow : S1x1024.Idx → EReal := StableHlo.after (hostOps1 (F := Ideal)) W (Proc.devRef .tc main_call0_v11)
abbrev betaRow : S1x1024.Idx → EReal := StableHlo.after (hostOps1 (F := Ideal)) W (Proc.devRef .tc main_call0_v12)

/-! ## A scalar word spread over a row -/

/-- The row every entry of which is the float the word `b` spells. -/
def constRow (b : BitVec 32) : S1x1024.Idx → EReal :=
  broadcastInDim S1x1024 ![] bcast_S_S1x1024 (constant (F := Ideal) S_ .f32 b)

theorem constRow_apply (b : BitVec 32) (i : S1x1024.Idx) : constRow b i = Ideal.ofBits .f32 b := by
  unfold constRow
  exact (broadcastInDim_apply _ bcast_S_S1x1024 (constant (F := Ideal) S_ .f32 b) i (fun a => a.elim0) (fun a => a.elim0)).trans rfl

/-! ## The first stretch: the bias as a row -/

theorem biasRow_eq : biasRow W = shapeCast S1x1024 (biasVec W) shapeCasts_S1024_S1x1024 := by
  show StableHlo.after (hostOps0 (F := Ideal)) W (Proc.devRef .tc main_call0_v0) = _
  after_results
  rfl

/-- Entry `(0, q)` of the bias row is entry `q` of the bias vector. -/
theorem bias_row (q : Fin 1024) : biasRow W (ix2 (0 : Fin 1) q) = biasVec W (ix1 q) := by
  rw [biasRow_eq]
  exact shapeCast_a_1a_apply (biasVec W) shapeCasts_S1024_S1x1024 0 q

/-! ## The second stretch -/

theorem meanRow_eq : meanRow W = Host.divf (F := Ideal) (φ := .f32) (sumRow W) (constRow 0x46800000#32) := by
  show StableHlo.after (hostOps1 (F := Ideal)) W (Proc.devRef .tc main_call0_v3) = _
  after_results
  rfl

/-- The mean of column `q`: its sum over the count of rows. -/
theorem mean_row (q : Fin 1024) :
    meanRow W (ix2 (0 : Fin 1) q) = Ideal.div (sumRow W (ix2 (0 : Fin 1) q)) Cert.Spec.countW := by
  rw [meanRow_eq]
  show Ideal.div (sumRow W (ix2 (0 : Fin 1) q)) (constRow 0x46800000#32 (ix2 (0 : Fin 1) q)) = _
  rw [constRow_apply]

theorem invRow_eq : invRow W = Host.rsqrt (F := Ideal) (φ := .f32)
    (addf (F := Ideal) (φ := .f32) (subf (F := Ideal) (φ := .f32) (Host.divf (F := Ideal) (φ := .f32) (sumSqRow W) (constRow 0x46800000#32))
        (mulf (F := Ideal) (φ := .f32) (Host.divf (F := Ideal) (φ := .f32) (sumRow W) (constRow 0x46800000#32)) (Host.divf (F := Ideal) (φ := .f32) (sumRow W) (constRow 0x46800000#32))))
      (constRow 0x3727C5AC#32)) := by
  show StableHlo.after (hostOps1 (F := Ideal)) W (Proc.devRef .tc main_call0_v10) = _
  after_results
  rfl

/-- The inverse deviation of column `q`: `rsqrt` of the mean of squares less the square of the mean, plus ε. -/
theorem inv_row (q : Fin 1024) :
    invRow W (ix2 (0 : Fin 1) q)
      = Ideal.rsqrt ((Ideal.div (sumSqRow W (ix2 (0 : Fin 1) q)) Cert.Spec.countW
          - Ideal.div (sumRow W (ix2 (0 : Fin 1) q)) Cert.Spec.countW * Ideal.div (sumRow W (ix2 (0 : Fin 1) q)) Cert.Spec.countW)
        + Cert.Spec.epsW) := by
  rw [invRow_eq]
  show Ideal.rsqrt ((Ideal.div (sumSqRow W (ix2 (0 : Fin 1) q)) (constRow 0x46800000#32 (ix2 (0 : Fin 1) q))
          - Ideal.div (sumRow W (ix2 (0 : Fin 1) q)) (constRow 0x46800000#32 (ix2 (0 : Fin 1) q))
            * Ideal.div (sumRow W (ix2 (0 : Fin 1) q)) (constRow 0x46800000#32 (ix2 (0 : Fin 1) q)))
        + constRow 0x3727C5AC#32 (ix2 (0 : Fin 1) q)) = _
  rw [constRow_apply, constRow_apply]

theorem gammaRow_eq : gammaRow W = shapeCast S1x1024 (gammaVec W) shapeCasts_S1024_S1x1024 := by
  show StableHlo.after (hostOps1 (F := Ideal)) W (Proc.devRef .tc main_call0_v11) = _
  after_results
  rfl

/-- Entry `(0, q)` of the scale row is entry `q` of the scale vector. -/
theorem gamma_row (q : Fin 1024) : gammaRow W (ix2 (0 : Fin 1) q) = gammaVec W (ix1 q) := by
  rw [gammaRow_eq]
  exact shapeCast_a_1a_apply (gammaVec W) shapeCasts_S1024_S1x1024 0 q

theorem betaRow_eq : betaRow W = shapeCast S1x1024 (betaVec W) shapeCasts_S1024_S1x1024 := by
  show StableHlo.after (hostOps1 (F := Ideal)) W (Proc.devRef .tc main_call0_v12) = _
  after_results
  rfl

/-- Entry `(0, q)` of the shift row is entry `q` of the shift vector. -/
theorem beta_row (q : Fin 1024) : betaRow W (ix2 (0 : Fin 1) q) = betaVec W (ix1 q) := by
  rw [betaRow_eq]
  exact shapeCast_a_1a_apply (betaVec W) shapeCasts_S1024_S1x1024 0 q

/-- No operation of the second stretch writes the [16384,1024] array the first kernel left. -/
theorem y_kept : StableHlo.after (hostOps1 (F := Ideal)) W (Proc.devRef .tc main_call0_v1_0) = W (Proc.devRef .tc main_call0_v1_0) :=
  StableHlo.after_of_writes_sub hostOps1 W hostOps1_writes (by decide)

end Cert.KernelIdeal.HostV

end
-- ==== Proof.KiBridge.lean ====
/-
  The kernel's closed formula is the specification's entry.

  The kernel holds the bias, the scale and the shift as rows of shape [1, 1024]; entry (0, q) of each row is entry q of
  the vector.  Once the rows are read as the vectors, the kernel's formula
      (y(r,o) − S1/N) · rsqrt((S2/N − (S1/N)·(S1/N)) + ε) · g(o) + be(o),
  with S1 the column's sum and S2 its sum of squares, is the specification's entry term for term: no law of arithmetic
  is used.
-/
import proofs.«159027_j9852654977033_1_alg».proof.Proof.Spec

noncomputable section

open scoped BigOperators

namespace Cert.KernelIdeal.Bridge

open Idealize.ShloMosaic Idealize.ShloMosaic.ValueIdx Cert.Spec

/-- From named parts: an entry of the linear layer, the column's two sums, the scale and the shift. -/
theorem outAt_of_parts (x : XIdx → EReal) (w : WIdx → EReal) (b g be : VIdx → EReal) (r : Fin 16384) (o : Fin 1024)
    (y S1 S2 gq beq : EReal) (hy : y = lin x w b r o) (h1 : S1 = colSum x w b o) (h2 : S2 = colSumSq x w b o)
    (hg : gq = g (ix1 o)) (hbe : beq = be (ix1 o)) :
    (y - Ideal.div S1 countW) * Ideal.rsqrt ((Ideal.div S2 countW - Ideal.div S1 countW * Ideal.div S1 countW) + epsW) * gq + beq
      = outAt x w b g be r o := by
  rw [hy, h1, h2, hg, hbe]
  rfl

/-- With the bias, the scale and the shift held as rows. -/
theorem kernel_eq_outAt (x : XIdx → EReal) (w : WIdx → EReal) (b g be : VIdx → EReal)
    (brow grow berow : (⟨2, ![1, 1024]⟩ : Shape).Idx → EReal)
    (hbrow : ∀ q : Fin 1024, brow (ix2 0 q) = b (ix1 q)) (hgrow : ∀ q : Fin 1024, grow (ix2 0 q) = g (ix1 q))
    (hberow : ∀ q : Fin 1024, berow (ix2 0 q) = be (ix1 q)) (r : Fin 16384) (o : Fin 1024) :
    (((∑ k : Fin 2048, x (ix2 r k) * sgn w o k) + brow (ix2 0 o))
          - Ideal.div (∑ r' : Fin 16384, ((∑ k : Fin 2048, x (ix2 r' k) * sgn w o k) + brow (ix2 0 o))) countW)
        * Ideal.rsqrt ((Ideal.div (∑ r' : Fin 16384, ((∑ k : Fin 2048, x (ix2 r' k) * sgn w o k) + brow (ix2 0 o))
                * ((∑ k : Fin 2048, x (ix2 r' k) * sgn w o k) + brow (ix2 0 o))) countW
            - Ideal.div (∑ r' : Fin 16384, ((∑ k : Fin 2048, x (ix2 r' k) * sgn w o k) + brow (ix2 0 o))) countW
              * Ideal.div (∑ r' : Fin 16384, ((∑ k : Fin 2048, x (ix2 r' k) * sgn w o k) + brow (ix2 0 o))) countW) + epsW)
        * grow (ix2 0 o) + berow (ix2 0 o)
      = outAt x w b g be r o := by
  rw [hbrow, hgrow, hberow]
  rfl

end Cert.KernelIdeal.Bridge

end
-- ==== Proof.KiFinal.lean ====
/-
  The idealized kernel program's result is the specification. The result array is what the second pallas_call
  writes: entry (r, o) is ((y(r,o) − mean(o)) · inv(o)) · gamma(o) + beta(o), over the five arrays that call finds:
  y is the first call's first output, untouched by the host operations in between; mean and inv are the host's
  rows sum/16384 and 1/sqrt(sumsq/16384 − mean·mean + ε) of the first call's two running sums; gamma and beta are the
  arguments reshaped to rows. The first call finds x and the weight as launched and the bias as a row, and leaves
  y(r,o) = Σ_k x(r,k)·s(o,k) + b(o), the column sums and the column sums of squares. Put together, entry (r, o) is the
  specification's, term for term.
-/
import proofs.«159027_j9852654977033_1_alg».proof.Proof.KiWhole
import proofs.«159027_j9852654977033_1_alg».proof.Proof.KiValue0S
import proofs.«159027_j9852654977033_1_alg».proof.Proof.KiValue1
import proofs.«159027_j9852654977033_1_alg».proof.Proof.KiHost
import proofs.«159027_j9852654977033_1_alg».proof.Proof.KiBridge

set_option maxRecDepth 16384

noncomputable section

open scoped BigOperators

namespace Cert.KernelIdeal.Final

open Cert.KernelIdeal Cert.KernelIdeal.Gen Cert.KernelIdeal.Whole
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The five argument arrays as launched. -/
abbrev a0 (c : Dev nD) : Cert.Spec.XIdx → EReal := m ((c.tc : Thread nD τ).loc main_arg0)
abbrev a1 (c : Dev nD) : Cert.Spec.WIdx → EReal := m ((c.tc : Thread nD τ).loc main_arg1)
abbrev a2 (c : Dev nD) : Cert.Spec.VIdx → EReal := m ((c.tc : Thread nD τ).loc main_arg2)
abbrev a3 (c : Dev nD) : Cert.Spec.VIdx → EReal := m ((c.tc : Thread nD τ).loc main_arg3)
abbrev a4 (c : Dev nD) : Cert.Spec.VIdx → EReal := m ((c.tc : Thread nD τ).loc main_arg4)

/-! ## What the first pallas_call finds -/

theorem hX (c : Dev nD) : R0W.xArr (U1 m) c = a0 m c := W1_of m c main_arg0 (by decide)
theorem hW (c : Dev nD) : R0W.wArr (U1 m) c = a1 m c := W1_of m c main_arg1 (by decide)
theorem hB (c : Dev nD) (q : Fin 1024) : R0W.bRow (U1 m) c (ix2 (0 : Fin 1) q) = a2 m c (ix1 q) :=
  HostV.bias_row (W0 m c) q

/-- The first call's linear layer is the specification's. -/
theorem hlin (c : Dev nD) (r : Fin 16384) (o : Fin 1024) :
    R0W.linRow (R0W.xArr (U1 m) c) (R0W.wArr (U1 m) c) (R0W.bRow (U1 m) c) r o = Cert.Spec.lin (a0 m c) (a1 m c) (a2 m c) r o := by
  unfold R0W.linRow Cert.Spec.lin
  rw [hX, hW, hB]

/-! ## What the second pallas_call finds -/

theorem hy (c : Dev nD) : R1V.xArr (U3 m) c = R0W.linArr (U1 m) c :=
  (HostV.y_kept (W2 m c)).trans ((W2_arr m c 3).trans (R0W.final3 (U1 m) c))
theorem hs1 (c : Dev nD) : HostV.sumRow (W2 m c) = R0W.sumArr (U1 m) c :=
  (W2_arr m c 4).trans (R0W.final4 (U1 m) c)
theorem hs2 (c : Dev nD) : HostV.sumSqRow (W2 m c) = R0W.sumSqArr (U1 m) c :=
  (W2_arr m c 5).trans (R0W.final5 (U1 m) c)
theorem hg (c : Dev nD) : HostV.gammaVec (W2 m c) = a3 m c :=
  (W2_of_ne m c main_arg3 (by decide)).trans (W1_of m c main_arg3 (by decide))
theorem hbe (c : Dev nD) : HostV.betaVec (W2 m c) = a4 m c :=
  (W2_of_ne m c main_arg4 (by decide)).trans (W1_of m c main_arg4 (by decide))

/-- THE RESULT: the array the run leaves in the result buffer is the specification of the arguments as launched. -/
theorem result_eq (c : Dev nD) :
    W4 m c (Proc.devRef .tc main_v0) = Cert.Spec.G (a0 m c) (a1 m c) (a2 m c) (a3 m c) (a4 m c) := by
  refine ((W4_arr m c 5).trans (R1V.final1_normed (U3 m) c)).trans ?_
  funext i
  obtain ⟨r, o, rfl⟩ : ∃ (r : Fin 16384) (o : Fin 1024), i = ix2 r o := ⟨i 0, i 1, eq_ix2 i⟩
  rw [Cert.Spec.G_ix2]
  show (R1V.xArr (U3 m) c (ix2 r o) - HostV.meanRow (W2 m c) (ix2 (0 : Fin 1) o)) * HostV.invRow (W2 m c) (ix2 (0 : Fin 1) o)
      * HostV.gammaRow (W2 m c) (ix2 (0 : Fin 1) o) + HostV.betaRow (W2 m c) (ix2 (0 : Fin 1) o) = _
  rw [HostV.mean_row, HostV.inv_row, HostV.gamma_row, HostV.beta_row]
  refine Cert.KernelIdeal.Bridge.outAt_of_parts (a0 m c) (a1 m c) (a2 m c) (a3 m c) (a4 m c) r o _ _ _ _ _ ?_ ?_ ?_ ?_ ?_
  · rw [hy]; exact hlin m c r o
  · rw [hs1]; exact congrArg (fun f : Fin 16384 → EReal => ∑ r', f r') (funext fun r' => hlin m c r' o)
  · rw [hs2]; exact congrArg (fun f : Fin 16384 → EReal => ∑ r', f r') (funext fun r' => congrArg₂ (· * ·) (hlin m c r' o) (hlin m c r' o))
  · rw [hg]
  · rw [hbe]

end Cert.KernelIdeal.Final

end
-- ==== Proof.Algebra.lean ====
/-
  The two facts about the extended reals that join the reference's arrangement of the layer to the specification's.

  (a) The weight.  A clipped weight c = min(1, max(−1, w)) is a real number between −1 and 1 whatever w is, also at
      w = ±∞.  Subtracting a real and adding it back changes no extended real, so (s − c) + c = s for every s.
  (b) The variance.  For real samples y_r, r over a finite type of N ≠ 0 elements, with mean μ = (Σ_r y_r)/N, the
      centred second moment (Σ_r (y_r − μ)²)/N is the mean of the squares minus the square of the mean:
          Σ_r (y_r − μ)² = Σ_r y_r² − 2μ Σ_r y_r + Nμ² = Σ_r y_r² − Nμ².
      On the extended reals the samples must be reals (∞ − ∞ would appear otherwise); then both sides are the
      coercion of the two real sides.  Division by the real N ≠ 0 is multiplication by the real 1/N.

  The words that are evaluated: 0x3F800000 = 1, 0xBF800000 = −1, 0x46800000 = 16384 (= 2^14), 0x00000000 = 0.
-/
import Idealize.ShloMosaic.PureOps.Ideal
import Idealize.ShloMosaic.PureOps.Ideal.Laws
import proofs.«159027_j9852654977033_1_alg».proof.Proof.LibRealEntries

noncomputable section

open scoped BigOperators

namespace Cert.Algebra

open Idealize.ShloMosaic

/-! ### The words -/

/-- The word 0x3F800000 is 1. -/
theorem one_word : Ideal.ofBits .f32 0x3F800000#32 = ((1 : ℝ) : EReal) := by
  simp [Ideal.ofBits, Ideal.ieee, -EReal.coe_mul]; norm_num

/-- The word 0xBF800000 is −1. -/
theorem neg_one_word : Ideal.ofBits .f32 0xBF800000#32 = ((-1 : ℝ) : EReal) := by
  simp [Ideal.ofBits, Ideal.ieee, -EReal.coe_mul]; norm_num

/-- The word 0x46800000 is 16384. -/
theorem count_word : Ideal.ofBits .f32 0x46800000#32 = ((16384 : ℝ) : EReal) := by
  simp [Ideal.ofBits, Ideal.ieee, -EReal.coe_mul]; norm_num

/-! ### (a) the weight -/

/-- A value clipped to [−1, 1] is a real, whatever was clipped. -/
theorem clip_real (w : EReal) : ∃ c : ℝ, min ((1 : ℝ) : EReal) (max ((-1 : ℝ) : EReal) w) = (c : EReal) := by
  have hlo : ((-1 : ℝ) : EReal) ≤ min ((1 : ℝ) : EReal) (max ((-1 : ℝ) : EReal) w) :=
    le_min (EReal.coe_le_coe_iff.mpr (by norm_num)) (le_max_left _ _)
  have hhi : min ((1 : ℝ) : EReal) (max ((-1 : ℝ) : EReal) w) ≤ ((1 : ℝ) : EReal) := min_le_left _ _
  refine ⟨(min ((1 : ℝ) : EReal) (max ((-1 : ℝ) : EReal) w)).toReal, (EReal.coe_toReal ?_ ?_).symm⟩
  · exact ne_top_of_le_ne_top (EReal.coe_ne_top 1) hhi
  · exact ne_bot_of_le_ne_bot (EReal.coe_ne_bot (-1)) hlo

/-- Subtracting the clipped weight and adding it back: (s − c) + c = s with c = min(1, max(−1, w)), the two bounds
    spelt as their words. -/
theorem sub_clip_add_clip (s w : EReal) :
    s - min (Ideal.ofBits .f32 0x3F800000#32) (max (Ideal.ofBits .f32 0xBF800000#32) w)
        + min (Ideal.ofBits .f32 0x3F800000#32) (max (Ideal.ofBits .f32 0xBF800000#32) w) = s := by
  rw [one_word, neg_one_word]
  obtain ⟨c, hc⟩ := clip_real w
  rw [hc]
  exact EReal.sub_add_cancel

/-! ### Reals stay reals -/

/-- The coercion of a finite real sum is the sum of the coercions. -/
theorem coe_sum {ι : Type} (s : Finset ι) (f : ι → ℝ) : ((∑ r ∈ s, f r : ℝ) : EReal) = ∑ r ∈ s, (f r : EReal) := by
  classical
  refine Finset.induction_on s (by simp) ?_
  intro a t ha ih
  rw [Finset.sum_insert ha, Finset.sum_insert ha, EReal.coe_add, ih]

/-- A row of reals against a row of reals, plus a real, is a real. -/
theorem dot_add_real {κ : Type} [Fintype κ] (x s : κ → EReal) (b : EReal)
    (hx : ∀ k, ∃ r : ℝ, x k = (r : EReal)) (hs : ∀ k, ∃ r : ℝ, s k = (r : EReal)) (hb : ∃ r : ℝ, b = (r : EReal)) :
    ∃ r : ℝ, (∑ k, x k * s k) + b = (r : EReal) := by
  obtain ⟨p, hp⟩ := Cert.LibRealEntries.sum_real Finset.univ (fun k => x k * s k) (fun k => by
    obtain ⟨a, ha⟩ := hx k
    obtain ⟨c, hc⟩ := hs k
    exact ⟨a * c, by rw [ha, hc, EReal.coe_mul]⟩)
  obtain ⟨q, hq⟩ := hb
  exact ⟨p + q, by rw [hp, hq, EReal.coe_add]⟩

/-! ### (b) the variance -/

/-- Over the reals: the centred second moment is the mean of the squares minus the square of the mean, division by
    N written as multiplication by 1/N. -/
theorem centred_real {ι : Type} [Fintype ι] (f : ι → ℝ) (N : ℝ) (hN : N ≠ 0) (hcard : (Fintype.card ι : ℝ) = N) :
    (∑ r, (f r - (∑ r, f r) * (1 / N)) * (f r - (∑ r, f r) * (1 / N))) * (1 / N)
      = (∑ r, f r * f r) * (1 / N) - ((∑ r, f r) * (1 / N)) * ((∑ r, f r) * (1 / N)) := by
  have h1 : ∀ r, (f r - (∑ r, f r) * (1 / N)) * (f r - (∑ r, f r) * (1 / N))
      = f r * f r - 2 * ((∑ r, f r) * (1 / N)) * f r + ((∑ r, f r) * (1 / N)) * ((∑ r, f r) * (1 / N)) := fun r => by ring
  simp only [h1, Finset.sum_add_distrib, Finset.sum_sub_distrib, ← Finset.mul_sum, Finset.sum_const, Finset.card_univ,
    nsmul_eq_mul, hcard]
  field_simp
  ring

/-- On the extended reals, for real samples: the centred form, its two sums started from 0, is the "mean of squares
    minus square of the mean" form. -/
theorem centred_ereal {ι : Type} [Fintype ι] (y : ι → EReal) (hy : ∀ r, ∃ t : ℝ, y r = (t : EReal))
    (N : ℝ) (hN : N ≠ 0) (hcard : (Fintype.card ι : ℝ) = N) :
    Ideal.div (0 + ∑ r, (y r - Ideal.div (0 + ∑ r, y r) (N : EReal)) * (y r - Ideal.div (0 + ∑ r, y r) (N : EReal))) (N : EReal)
      = Ideal.div (∑ r, y r * y r) (N : EReal) - Ideal.div (∑ r, y r) (N : EReal) * Ideal.div (∑ r, y r) (N : EReal) := by
  choose f hf using hy
  obtain rfl : y = fun r => (f r : EReal) := funext hf
  have h := congrArg (fun t : ℝ => (t : EReal)) (centred_real f N hN hcard)
  simp only [EReal.coe_sub, EReal.coe_mul, coe_sum] at h
  simp only [zero_add, Ideal.div_coe hN]
  exact h

/-- The same over 16384 rows, with the count and the sums' start spelt as their words. -/
theorem centred_words (y : Fin 16384 → EReal) (hy : ∀ r, ∃ t : ℝ, y r = (t : EReal)) :
    Ideal.div (Ideal.ofBits .f32 0x00000000#32 + ∑ r, (y r - Ideal.div (Ideal.ofBits .f32 0x00000000#32 + ∑ r, y r) (Ideal.ofBits .f32 0x46800000#32))
        * (y r - Ideal.div (Ideal.ofBits .f32 0x00000000#32 + ∑ r, y r) (Ideal.ofBits .f32 0x46800000#32))) (Ideal.ofBits .f32 0x46800000#32)
      = Ideal.div (∑ r, y r * y r) (Ideal.ofBits .f32 0x46800000#32)
        - Ideal.div (∑ r, y r) (Ideal.ofBits .f32 0x46800000#32) * Ideal.div (∑ r, y r) (Ideal.ofBits .f32 0x46800000#32) := by
  rw [Ideal.ofBits_zero_f32, count_word]
  exact centred_ereal y hy 16384 (by norm_num) (by simp)

/-- The mean's sum started from the zero word is the plain sum. -/
theorem zero_word_add (a : EReal) : Ideal.ofBits .f32 0x00000000#32 + a = a := by
  rw [Ideal.ofBits_zero_f32, zero_add]

end Cert.Algebra

end
-- ==== Proof.RefLinear.lean ====
/-
  The reference program up to its linear layer, read index by index.

  Where each stage of the reference reads its operands, as coordinates; the reference's weight (s − c) + c, with c the
  weight clipped to [−1, 1], is the binarised weight s because c is a real; hence entry (r, o) of its linear layer is
  Σ_k x(r,k)·s(o,k) + b(o), and that entry is a real when x and b are.
-/
import proofs.«159027_j9852654977033_1_alg».proof.Proof.Gen.ReferenceIdeal.Read
import proofs.«159027_j9852654977033_1_alg».proof.Proof.Spec
import proofs.«159027_j9852654977033_1_alg».proof.Proof.Algebra

noncomputable section

open scoped BigOperators

namespace Cert.RefLinear

open Idealize.ShloMosaic Idealize.ShloMosaic.ValueIdx Cert.ReferenceIdeal Cert.ReferenceIdeal.Read Cert.Spec

/-! ### Where each stage reads its operands -/

theorem lidx7 (r : Fin 16384) (o : Fin 1024) (k : Fin 2048) : lidx_main_v7 (ix2 r o) k = ix2 r k :=
  funext fun a => Fin.ext (by match a with | ⟨0, _⟩ => rfl | ⟨1, _⟩ => rfl)

theorem ridx7 (r : Fin 16384) (o : Fin 1024) (k : Fin 2048) : ridx_main_v7 (ix2 r o) k = ix2 o k :=
  funext fun a => Fin.ext (by match a with | ⟨0, _⟩ => rfl | ⟨1, _⟩ => rfl)

/-- A row vector broadcast over the rows: entry (r, o) reads entry o. -/
theorem idx8_9 (r : Fin 16384) (o : Fin 1024) : idx_main_v8 (idx_main_v9 (ix2 r o)) = ix1 o :=
  funext fun a => Fin.ext (by match a with | ⟨0, _⟩ => rfl)

theorem idx11 (o : Fin 1024) (k : Fin 16384) : idx_main_v11 (ix1 o) k = ix2 k o :=
  funext fun a => Fin.ext (by match a with | ⟨0, _⟩ => rfl | ⟨1, _⟩ => rfl)

theorem idx18 (o : Fin 1024) (k : Fin 16384) : idx_main_v18 (ix1 o) k = ix2 k o :=
  funext fun a => Fin.ext (by match a with | ⟨0, _⟩ => rfl | ⟨1, _⟩ => rfl)

theorem idx14_15 (r : Fin 16384) (o : Fin 1024) : idx_main_v14 (idx_main_v15 (ix2 r o)) = ix1 o :=
  funext fun a => Fin.ext (by match a with | ⟨0, _⟩ => rfl)

theorem idx21_22 (r : Fin 16384) (o : Fin 1024) : idx_main_v21 (idx_main_v22 (ix2 r o)) = ix1 o :=
  funext fun a => Fin.ext (by match a with | ⟨0, _⟩ => rfl)

theorem idx27_28 (r : Fin 16384) (o : Fin 1024) : idx_main_v27 (idx_main_v28 (ix2 r o)) = ix1 o :=
  funext fun a => Fin.ext (by match a with | ⟨0, _⟩ => rfl)

theorem idx30_31 (r : Fin 16384) (o : Fin 1024) : idx_main_v30 (idx_main_v31 (ix2 r o)) = ix1 o :=
  funext fun a => Fin.ext (by match a with | ⟨0, _⟩ => rfl)

theorem idx33_34 (r : Fin 16384) (o : Fin 1024) : idx_main_v33 (idx_main_v34 (ix2 r o)) = ix1 o :=
  funext fun a => Fin.ext (by match a with | ⟨0, _⟩ => rfl)

/-! ### The weight -/

/-- The reference's weight (s − c) + c at (o, k) is the binarised weight s. -/
theorem weight_at (w : WIdx → EReal) (o : Fin 1024) (k : Fin 2048) :
    val_main_v6 (F := Ideal) w (ix2 o k) = sgn w o k := by
  simp only [val_main_v6_apply, val_main_v5_apply, val_main_v4_apply, val_main_v3_apply, val_main_v2_apply,
    val_main_v1_apply, val_main_v0_apply, val_main_cst_apply, val_main_call0_v0_apply, val_main_cst_0_apply,
    val_main_call0_v1_apply, val_main_cst_1_apply, val_main_call1_v4_apply, val_main_call1_v3_apply,
    val_main_cst_3_apply, val_main_call1_v2_apply, val_main_call1_v1_apply, val_main_call1_v0_apply,
    val_main_cst_2_apply, Ideal.addf_def, Ideal.subf_def, Ideal.maximumf_def, Ideal.minimumf_def, Ideal.ofBits_def]
  exact Cert.Algebra.sub_clip_add_clip _ _

/-- The binarised weight is a real: one of the two words 1 and −1. -/
theorem sgn_real (w : WIdx → EReal) (o : Fin 1024) (k : Fin 2048) : ∃ t : ℝ, sgn w o k = (t : EReal) := by
  unfold sgn Scalar.select
  split
  · exact ⟨1, Cert.Algebra.one_word⟩
  · exact ⟨-1, Cert.Algebra.neg_one_word⟩

/-! ### The linear layer -/

/-- Entry (r, o) of the reference's linear layer is the specification's. -/
theorem lin_at (x : XIdx → EReal) (w : WIdx → EReal) (b : VIdx → EReal) (r : Fin 16384) (o : Fin 1024) :
    val_main_v10 (F := Ideal) x w b (ix2 r o) = lin x w b r o := by
  rw [val_main_v10_apply, val_main_v7_apply, val_main_v9_apply, val_main_v8_apply, idx8_9]
  simp only [lidx7, ridx7, weight_at, Ideal.addf_def]
  rfl

/-- For real inputs and a real bias every entry of the linear layer is a real. -/
theorem lin_real (x : XIdx → EReal) (w : WIdx → EReal) (b : VIdx → EReal)
    (hx : ∀ i, ∃ t : ℝ, x i = (t : EReal)) (hb : ∀ i, ∃ t : ℝ, b i = (t : EReal)) (r : Fin 16384) (o : Fin 1024) :
    ∃ t : ℝ, lin x w b r o = (t : EReal) :=
  Cert.Algebra.dot_add_real (fun k => x (ix2 r k)) (fun k => sgn w o k) (b (ix1 o))
    (fun _ => hx _) (fun k => sgn_real w o k) (hb _)

end Cert.RefLinear

end
-- ==== Proof.RefSide.lean ====
/-
  The reference program, read index by index, is the specification.

  Up to the linear layer the two agree entry by entry.  The reference's variance is the centred form
  (Σ_r (y_r − μ)²)/N; it is the mean of the squares minus μ·μ because every y_r is a real (a finite sum of products of
  reals, plus a real).  Everything after the variance (adding ε, the inverse square root, the products with the
  scale, the shift) is the same term on both sides.
-/
import proofs.«159027_j9852654977033_1_alg».proof.Proof.RefLinear

noncomputable section

open scoped BigOperators

namespace Cert.RefSide

open Idealize.ShloMosaic Idealize.ShloMosaic.ValueIdx Cert.ReferenceIdeal Cert.ReferenceIdeal.Read Cert.Spec Cert.RefLinear

/-! ### The mean and the variance -/

/-- The reference's column mean, its sum still started from the zero word. -/
theorem mean_raw (x : XIdx → EReal) (w : WIdx → EReal) (b : VIdx → EReal) (o : Fin 1024) :
    val_main_v13 (F := Ideal) x w b (ix1 o)
      = Ideal.div (Ideal.ofBits .f32 0x00000000#32 + ∑ r : Fin 16384, lin x w b r o) (Ideal.ofBits .f32 0x46800000#32) := by
  rw [val_main_v13_apply, val_main_v11_apply, val_main_v12_apply, val_main_cst_5_apply, val_main_cst_4_apply]
  simp only [idx11, lin_at, Ideal.hostDivf_def, Ideal.ofBits_def]

/-- The reference's column mean is the specification's. -/
theorem mean_at (x : XIdx → EReal) (w : WIdx → EReal) (b : VIdx → EReal) (o : Fin 1024) :
    val_main_v13 (F := Ideal) x w b (ix1 o) = mean x w b o := by
  rw [mean_raw, Cert.Algebra.zero_word_add]
  rfl

/-- The reference's centred variance is the specification's, for real inputs and a real bias. -/
theorem var_at (x : XIdx → EReal) (w : WIdx → EReal) (b : VIdx → EReal)
    (hx : ∀ i, ∃ t : ℝ, x i = (t : EReal)) (hb : ∀ i, ∃ t : ℝ, b i = (t : EReal)) (o : Fin 1024) :
    val_main_v20 (F := Ideal) x w b (ix1 o) = var x w b o := by
  rw [val_main_v20_apply, val_main_v18_apply, val_main_v19_apply, val_main_cst_7_apply, val_main_cst_6_apply]
  simp only [val_main_v17_apply, val_main_v16_apply, val_main_v15_apply, val_main_v14_apply, idx18, idx14_15, lin_at,
    mean_raw, Ideal.hostDivf_def, Ideal.mulf_def, Ideal.subf_def, Ideal.ofBits_def]
  exact Cert.Algebra.centred_words (fun r => lin x w b r o) (fun r => lin_real x w b hx hb r o)

/-! ### The result -/

/-- Entry (r, o) of the reference's result is the specification's. -/
theorem out_at (x : XIdx → EReal) (w : WIdx → EReal) (b g be : VIdx → EReal)
    (hx : ∀ i, ∃ t : ℝ, x i = (t : EReal)) (hb : ∀ i, ∃ t : ℝ, b i = (t : EReal)) (r : Fin 16384) (o : Fin 1024) :
    val_main_v35 (F := Ideal) x w b g be (ix2 r o) = outAt x w b g be r o := by
  rw [val_main_v35_apply, val_main_v32_apply, val_main_v29_apply, val_main_v23_apply, val_main_v22_apply,
    val_main_v21_apply, idx21_22, val_main_v28_apply, val_main_v27_apply, idx27_28, val_main_v26_apply,
    val_main_v25_apply, val_main_v24_apply, val_main_cst_8_apply, val_main_v31_apply, val_main_v30_apply, idx30_31,
    val_main_v34_apply, val_main_v33_apply, idx33_34, lin_at, mean_at, var_at x w b hx hb]
  simp only [Ideal.addf_def, Ideal.subf_def, Ideal.mulf_def, Ideal.hostUnary_rsqrt_def, Ideal.ofBits_def]
  rfl

/-- The reference computes the specification, for real inputs and a real bias. -/
theorem ref_eq_G (x : XIdx → EReal) (w : WIdx → EReal) (b g be : VIdx → EReal)
    (hx : ∀ i, ∃ r : ℝ, x i = (r : EReal)) (hb : ∀ i, ∃ r : ℝ, b i = (r : EReal)) :
    val_main_v35 (F := Ideal) x w b g be = G x w b g be := by
  funext i
  obtain ⟨r, o, rfl⟩ : ∃ (r : Fin 16384) (o : Fin 1024), i = ix2 r o := ⟨i 0, i 1, eq_ix2 i⟩
  rw [G_ix2]
  exact out_at x w b g be hx hb r o

end Cert.RefSide

end
-- ==== Proof.Finite.lean ====
/-
  From the precondition "every input entry is finite" to "every input entry is a real number".

  The precondition is a test of the inputs: for each of the five argument arrays, the bit "|entry| < +∞" is computed for every
  entry, all the bits of an array are reduced by "and" from 1, and the five results are joined by "and"; the claim
  assumes the final bit is 1.  A conjunction that is 1 had both sides 1, a reduction by "and" that is 1 met only 1s,
  and an extended real whose absolute value is below +∞ is a real.
-/
import proofs.«159027_j9852654977033_1_alg».proof.Defs
import proofs.«159027_j9852654977033_1_alg».proof.Proof.LibRealEntries
import Idealize.ShloMosaic.Lib.ReduceAll
import Idealize.ShloMosaic.Lib.ValueIdx

noncomputable section

namespace Cert.Finite

open Idealize.ShloMosaic Idealize.SL.Sem Cert.Pre_finite_inputs

/-- The shape with no axes has one index. -/
instance : Subsingleton S_.Idx := ⟨fun a b => funext fun d => d.elim0⟩

/-- One array's test: if the "and" over all entries of the bits "|entry| < +∞" is 1, every entry is a real. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32)))
        (constantI S_ 1 1#1) hr hu j = 1#1) (i : s.Idx) : ∃ r : ℝ, x i = (r : EReal) :=
  Cert.LibRealEntries.real_of_cmp (x i) (Host.reduce_andi_all _ _ hr hu j e i)

/-- The whole test over the five arrays as variables. -/
theorem reals_of_fn [Facts] (x0 : FVec Ideal S16384x2048 .f32) (x1 : FVec Ideal S1024x2048 .f32) (x2 x3 x4 : FVec Ideal S1024 .f32)
    (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [fn, fn_part1, Idealize.ShloMosaic.andi] at h0
  simp only [IntOp.andi_eq_one] at h0
  obtain ⟨⟨⟨⟨e0, e1⟩, e2⟩, e3⟩, e4⟩ := h0
  exact ⟨real_of_all x0 _ _ _ _ e0, real_of_all x1 _ _ _ _ e1, real_of_all x2 _ _ _ _ e2, real_of_all x3 _ _ _ _ e3,
    real_of_all x4 _ _ _ _ e4⟩

/-- Under the kernel's precondition every entry of its five argument arrays is a real. -/
theorem reals_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  reals_of_fn _ _ _ _ _ (h c)

end Cert.Finite

end
-- ==== Proof.lean ====
/-
  The kernel — a linear layer with binarised weights followed by batch normalisation over the 16384 rows, as two
  pallas_calls with the batch statistics computed on the host in between — against its jnp reference, on the extended
  reals.

  Both compute, for x : [16384, 2048], w : [1024, 2048] and b, g, be : [1024],
      y(r,o) = Σ_k x(r,k) · s(o,k) + b(o),   s(o,k) = +1 where w(o,k) ≥ 0 and −1 elsewhere,
      out(r,o) = ((y(r,o) − μ(o)) / sqrt(v(o) + ε)) · g(o) + be(o),
  with μ(o) the mean of column o of y and v(o) its variance. They differ in two places. The reference spells the weight
  (s − c) + c with c the weight clipped to [−1, 1]: c is always a real, so this is s. The reference computes the variance
  as the mean of (y − μ)², the kernel as the mean of y² minus μ²: equal when every y(r,o) is a real, which holds because
  the precondition makes every entry of x and b finite (the sums of finitely many reals are reals). Everything else is the
  same operation on both sides; the kernel's sums run block by block over the grid (32 blocks of 512 rows), which is the
  same sum, addition of extended reals being associative and commutative.

  The three frames: the reference is a host program and its generated run terminates with the arguments unchanged; each
  kernel program's run is assembled from its two pallas_calls as segments (the first carries its scratch, the binarised
  weight, and its two running sums from grid point to grid point). The idealization rewrote nothing, so there is nothing
  to preserve. The value claim: the kernel's run ends with the result at the specification of the arguments, and the
  reference's at its composed term, which is the specification under the precondition.
-/
import proofs.«159027_j9852654977033_1_alg».proof.Defs
import proofs.«159027_j9852654977033_1_alg».proof.Proof.Gen.Kernel
import proofs.«159027_j9852654977033_1_alg».proof.Proof.Gen.KernelIdeal
import proofs.«159027_j9852654977033_1_alg».proof.Proof.Gen.ReferenceIdeal
import proofs.«159027_j9852654977033_1_alg».proof.Proof.Gen.Pre_finite_inputs
import proofs.«159027_j9852654977033_1_alg».proof.Proof.Gen.ReferenceIdeal.Run
import proofs.«159027_j9852654977033_1_alg».proof.Proof.Gen.ReferenceIdeal.Read
import proofs.«159027_j9852654977033_1_alg».proof.Proof.KbWhole
import proofs.«159027_j9852654977033_1_alg».proof.Proof.KiFinal
import proofs.«159027_j9852654977033_1_alg».proof.Proof.RefSide
import proofs.«159027_j9852654977033_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Whole.frame m ρ

/-- The idealized kernel program runs and leaves its arguments unchanged. -/
theorem frame_ki : Cert.frame_KernelIdeal := fun m ρ _ => Cert.KernelIdeal.Whole.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification of the arguments in their result: the kernel's run by its value
    read off the last boundary, the reference's by its composed term, which is the specification once every entry of x
    and of the bias is a real. -/
theorem algebraic : Cert.algebraic_KernelIdeal_ReferenceIdeal := by
  intro m ρ m' ρ' hpre hagree
  refine ⟨fun c => Cert.Spec.G (Cert.KernelIdeal.Final.a0 m c) (Cert.KernelIdeal.Final.a1 m c) (Cert.KernelIdeal.Final.a2 m c)
      (Cert.KernelIdeal.Final.a3 m c) (Cert.KernelIdeal.Final.a4 m c), ?_, ?_⟩
  · exact (θ_run Cert.KernelIdeal.defs _ _).mono
      (fun r h c => ⟨(h c).1.trans (Cert.KernelIdeal.Final.result_eq m c), (h c).2⟩) (Cert.KernelIdeal.Whole.run_value m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v35_eq, (hagree c).1, (hagree c).2.1, (hagree c).2.2.1, (hagree c).2.2.2.1,
      (hagree c).2.2.2.2]
    exact Cert.RefSide.ref_eq_G _ _ _ _ _ (Cert.Finite.reals_of_pre m hpre c).1 (Cert.Finite.reals_of_pre m hpre c).2.2.1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
